-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩
abbrev S4000 : Shape := ⟨1, ![4000]⟩

abbrev nBuf : Space → Nat
  | .hbm => 40
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x1, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S4000x128, .f32⟩
  | .local _ .vmem, ⟨14, _⟩ => ⟨S4000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000, .f32⟩
  | .hbm, ⟨71, _⟩ => ⟨S100000x1, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_cst : Ref sig .tc := ⟨.hbm, 89, rfl⟩
abbrev main_call0_v0 : Ref sig .tc := ⟨.hbm, 90, rfl⟩
abbrev main_v69 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its RESULT kept. The program is four segments: the host operations that compute the
  degree normalisation, the first region (the row-scaled product), the host gather and scatter-add between the regions,
  and the second region (layer normalisation and rectifier). At every boundary the buffers' contents are known by name
  (`Gen.W1` … `Gen.W4`); at the end every unscoped buffer holds `Gen.W4`'s contents, the result buffer among them, and
  `W4` at the result buffer is what the second region's write-backs leave of its output window.
-/
import proofs.«144689_j40931038331316_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's output window is the result buffer: at the last boundary the result buffer holds what the
    second region's write-backs leave. -/
theorem W4_result (c : Dev nD) :
    W4 m ρ c (Proc.devRef .tc main_v27) = (dat1 (V3 m ρ) c).arrAt 7 cfg1.N :=
  W4_arr m ρ c 7

set_option backward.isDefEq.respectTransparency.types false in
/-- Every weakly fair execution of the idealized kernel terminates, nothing faulting, with the result buffer at the
    last boundary's contents and the six argument arrays as launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KernelRun

end
-- ==== Proof.Spec.lean ====
/-
  The mathematics both programs compute on ONE node's row of 128 features, stated on the extended reals with no
  program in sight: the layer normalisation of a row followed by a rectifier. A row `h` has mean
  `mean h = (∑ₖ h k) / 128` and variance `mean (k ↦ (h k − mean h)²)`; entry `q` of the result is
  `max ((h q − mean h) · (variance + ε)^(−1/2) · g q + be q) 0`, with `128` and `ε` the two float words both
  programs print (their values are never evaluated: the same word stands on both sides).
-/
import Idealize.ShloMosaic.PureOps.Ideal
import Idealize.ShloMosaic.Lib.ValueIdx

noncomputable section

open scoped BigOperators

namespace Cert.Spec

open Idealize.ShloMosaic Idealize.ShloMosaic.ValueIdx

/-- Entry `(a, b)` of a rank-2 array of extended reals. -/
abbrev rd2 {n0 n1 : Nat} (f : (⟨2, ![n0, n1]⟩ : Shape).Idx → EReal) (a : Fin n0) (b : Fin n1) : EReal := f (ix2 a b)

/-- The mean of a row of 128 extended reals: its sum divided by the float word of `128.0`. -/
def mean (h : Fin 128 → EReal) : EReal :=
  Ideal.div (∑ k : Fin 128, h k) (Ideal.ofBits .f32 0x43000000#32)

/-- The biased variance of a row: the mean of the squared deviations from the mean. -/
def variance (h : Fin 128 → EReal) : EReal :=
  mean fun k => (h k - mean h) * (h k - mean h)

/-- Layer normalisation of the row `h` with scale `g` and shift `be`, then the rectifier, at feature `q`. -/
def lnRelu (h g be : Fin 128 → EReal) (q : Fin 128) : EReal :=
  max ((h q - mean h) * Ideal.rsqrt (variance h + Ideal.ofBits .f32 0x3727C5AC#32) * g q + be q) 0

end Cert.Spec

end
-- ==== Proof.GraphSpec.lean ====
/-
  The two arrangements of one normalised graph convolution, over abstract edge data, with no program in sight.
  An edge list has `E` entries; entry `e` ends at the node whose number is the integer `tgt e` (an entry whose `tgt` is no
  node number ends nowhere and contributes nothing), and its source is read at row `srow e` of the node tables.
  `one` is the unit each entry adds to its end's degree. `xw` is the projected feature table, `b` the bias, `x` the
  residual input.
    * `kernelRow`: the list holds the given edges only; every node's degree is its count of incoming edges plus one
      (its own loop); each source row is scaled by the source's factor before the sum over the edges into a node, the
      sum is multiplied by the node's factor afterwards, and the node's loop term `xw p · dis p · dis p` is added apart.
    * `referenceRow`: the list holds the edges AND one loop per node; the degree is the plain count; every term of the
      sum is multiplied by both factors, the end's factor read at row `trow e`.
-/
import proofs.«144689_j40931038331316_2_alg».proof.Proof.Spec

noncomputable section

open scoped BigOperators

namespace Cert.GraphSpec

open Idealize.ShloMosaic

/-- The number of list entries that end at node `r`, each counted as `one`. -/
def count {E : Nat} (one : EReal) (tgt : Fin E → Int) (r : Fin 100000) : EReal :=
  ∑ e : Fin E, if tgt e = (r.val : Int) then one else 0

/-- The kernel's pre-normalisation row of node `p`. -/
def kernelRow {E : Nat} (one : EReal) (tgt : Fin E → Int) (srow : Fin E → Fin 100000)
    (xw : Fin 100000 → Fin 128 → EReal) (b : Fin 128 → EReal) (x : Fin 100000 → Fin 128 → EReal)
    (p : Fin 100000) : Fin 128 → EReal :=
  fun k =>
    (∑ e : Fin E, if tgt e = (p.val : Int) then xw (srow e) k * Ideal.rsqrt (count one tgt (srow e) + one) else 0)
        * Ideal.rsqrt (count one tgt p + one)
      + xw p k * Ideal.rsqrt (count one tgt p + one) * Ideal.rsqrt (count one tgt p + one)
      + b k + x p k

/-- The reference's pre-normalisation row of node `p`. -/
def referenceRow {E : Nat} (one : EReal) (tgt : Fin E → Int) (srow trow : Fin E → Fin 100000)
    (xw : Fin 100000 → Fin 128 → EReal) (b : Fin 128 → EReal) (x : Fin 100000 → Fin 128 → EReal)
    (p : Fin 100000) : Fin 128 → EReal :=
  fun k =>
    (∑ e : Fin E, if tgt e = (p.val : Int) then
        xw (srow e) k * (Ideal.rsqrt (count one tgt (srow e)) * Ideal.rsqrt (count one tgt (trow e))) else 0)
      + b k + x p k

end Cert.GraphSpec

end
-- ==== Proof.LibGatherRows.lean ====
/-
  Taking rows of a table by an index column, read at an entry. The operand is a table [N, C] (or a vector [N]), the
  start indices a column [E, 1], and the dimension numbers are those of `table[idx]`: the row axis collapsed and named by
  the one start-index component, the column axis (if any) the one offset axis. Entry (e, c) of the result is the
  table's entry (r, c) with r the start index idx[e, 0] read as a signed integer and clamped into [0, N - 1]; for a
  vector, entry e is the vector's entry r. The row r is the SAME function of idx and e in both, so taking rows
  commutes with any operation that acts row by row. Stated for any record with those dimension numbers.
-/
import Idealize.ShloMosaic.Lib.ValueIdx
import Idealize.ShloMosaic.PureOps.ShapeOps

namespace Cert.LibGatherRows

open Idealize.ShloMosaic Idealize.ShloMosaic.ValueIdx

/-- The row that start index `idx[e, 0]` names in a table of `N` rows: read signed, clamped into `[0, N - 1]`. -/
def row {N E w : Nat} (hN : 0 < N) (idx : IVec ⟨2, ![E, 1]⟩ w) (e : Fin E) : Fin N :=
  ⟨min (idx (ix2 e (0 : Fin 1))).toInt.toNat (N - 1), by omega⟩

/-- Rows of a table: result entry `(e, c)` reads the operand at `(row idx e, c)`. -/
theorem rows_operandIdx {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (row hN idx e) c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

/-- Entries of a vector: result entry `e` reads the operand at `row idx e`. -/
theorem elems_operandIdx {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (row hN idx e) := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl

/-- The table's rows taken, at entry `(e, c)`. -/
theorem gather_rows_apply {α : Type} {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (c : Fin C) :
    Host.gather d x idx (ix2 e c) = x (ix2 (row hN idx e) c) := by
  unfold Host.gather
  rw [rows_operandIdx hN d h1 h2 h3 h4 h5 h6 h7 idx e c]

/-- The vector's entries taken, at entry `e`. -/
theorem gather_elems_apply {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (row hN idx e)) := by
  unfold Host.gather
  rw [elems_operandIdx hN d h1 h2 h3 h4 h5 h6 h7 idx e]

end Cert.LibGatherRows
-- ==== Proof.LibScatterAddRows.lean ====
/-
  A scatter-add of rows into a table, read at an entry. The operand is a table [N, C] (or a vector [N]), the scatter
  indices a column [E, 1], the updates [E, C] (or [E]), and the dimension numbers are those of a segment sum: the row
  axis is the one inserted window axis and the one the start index names, the column axis (if any) the one window axis.
  Update row e lands on operand row p exactly when its start index idx[e, 0], read as a signed integer and NOT clamped,
  equals p; it is dropped otherwise. So on the extended reals entry (p, k) of the result is the operand's entry plus
  the sum over the update rows e with idx[e, 0] = p of the update's entry (e, k). Stated for any record with those
  dimension numbers, whatever the number of updates.
-/
import Idealize.ShloMosaic.Lib.ValueIdx
import Idealize.ShloMosaic.PureOps.Ideal

noncomputable section

open scoped BigOperators

namespace Cert.LibScatterAddRows

open Idealize.ShloMosaic Idealize.ShloMosaic.ValueIdx

/-- The start index of update row `e` on the row axis: the scatter index `idx[e, 0]` read signed. -/
theorem rows_start0 {N C E w : Nat} (d : ScatterDims ⟨2, ![N, C]⟩ ⟨2, ![E, 1]⟩ ⟨2, ![E, C]⟩)
    (h1 : d.updateWindowDims = [1]) (h3 : d.scatterDimsToOperandDims = [0]) (h4 : d.indexVectorDim = 1)
    (idx : IVec ⟨2, ![E, 1]⟩ w) (e : Fin E) (c : Fin C) :
    d.start (ix2 e c) idx 0 = (idx (ix2 e (0 : Fin 1))).toInt := by
  obtain ⟨uw, iw, sd, iv, wf⟩ := d
  dsimp only at h1 h3 h4
  subst h1 h3 h4
  unfold ScatterDims.start
  rw [dif_pos (List.mem_singleton.mpr rfl)]
  refine congrArg (fun z : (⟨2, ![E, 1]⟩ : Shape).Idx => (idx z).toInt) ?_
  funext b; refine Fin.ext ?_
  match b with
  | ⟨0, _⟩ => rfl
  | ⟨1, _⟩ => rfl

/-- The column axis is not named by the start index: the window starts at column 0. -/
theorem rows_start1 {N C E w : Nat} (d : ScatterDims ⟨2, ![N, C]⟩ ⟨2, ![E, 1]⟩ ⟨2, ![E, C]⟩)
    (h3 : d.scatterDimsToOperandDims = [0]) (idx : IVec ⟨2, ![E, 1]⟩ w) (j : (⟨2, ![E, C]⟩ : Shape).Idx) :
    d.start j idx 1 = 0 := by
  obtain ⟨uw, iw, sd, iv, wf⟩ := d
  dsimp only at h3
  subst h3
  unfold ScatterDims.start
  rw [dif_neg (show ¬ ((1 : Fin 2) ∈ ([0] : List (Fin 2))) by decide)]

/-- The row axis is inserted: the window has no extent along it. -/
theorem rows_window0 {N C E : Nat} (d : ScatterDims ⟨2, ![N, C]⟩ ⟨2, ![E, 1]⟩ ⟨2, ![E, C]⟩)
    (h2 : d.insertedWindowDims = [0]) (j : (⟨2, ![E, C]⟩ : Shape).Idx) :
    d.window j 0 = 0 := by
  obtain ⟨uw, iw, sd, iv, wf⟩ := d
  dsimp only at h2
  subst h2
  unfold ScatterDims.window
  rw [dif_neg (by simp [ScatterDims.sKept, Shape.kept])]

/-- Along the column axis the window coordinate is the update's column. -/
theorem rows_window1 {N C E : Nat} (d : ScatterDims ⟨2, ![N, C]⟩ ⟨2, ![E, 1]⟩ ⟨2, ![E, C]⟩)
    (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by simp [ScatterDims.sKept, Shape.kept])]
  rfl

/-- Update entry `(e, c)` of a row scatter lands on operand entry `(p, k)` exactly when the start index of row `e`
    is `p` and the columns agree. -/
theorem rows_resultIdx {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (p : Fin N) (k : Fin C) :
    d.resultIdx? (ix2 e c) idx = some (ix2 p k) ↔ (idx (ix2 e (0 : Fin 1))).toInt = (p.val : Int) ∧ c = k := by
  have hs0 := rows_start0 d h1 h3 h4 idx e c
  have hs1 := rows_start1 d h3 idx (ix2 e c)
  have hw0 := rows_window0 d h2 (ix2 e c)
  have hw1 := rows_window1 d h1 h2 e c
  constructor
  · intro h
    unfold ScatterDims.resultIdx? at h
    split at h
    · next hall =>
      have hv := Option.some.inj h
      have v0 : (d.start (ix2 e c) idx 0 + d.window (ix2 e c) 0).toNat = p.val := congrArg Fin.val (congrFun hv 0)
      have v1 : (d.start (ix2 e c) idx 1 + d.window (ix2 e c) 1).toNat = k.val := congrArg Fin.val (congrFun hv 1)
      have h0 := (hall 0).1
      rw [hs0, hw0] at v0 h0
      rw [hs1, hw1] at v1
      exact ⟨by omega, Fin.ext (by omega)⟩
    · exact absurd h (by simp)
  · rintro ⟨ht, rfl⟩
    unfold ScatterDims.resultIdx?
    have hall : ∀ a, 0 ≤ d.start (ix2 e c) idx a + d.window (ix2 e c) a ∧
        d.start (ix2 e c) idx a + d.window (ix2 e c) a < (⟨2, ![N, C]⟩ : Shape).size a := by
      intro a
      match a with
      | ⟨0, _⟩ =>
        have := p.isLt
        show 0 ≤ d.start (ix2 e c) idx 0 + d.window (ix2 e c) 0 ∧ d.start (ix2 e c) idx 0 + d.window (ix2 e c) 0 < (N : Int)
        rw [hs0, hw0, ht]; omega
      | ⟨1, _⟩ =>
        have := c.isLt
        show 0 ≤ d.start (ix2 e c) idx 1 + d.window (ix2 e c) 1 ∧ d.start (ix2 e c) idx 1 + d.window (ix2 e c) 1 < (C : Int)
        rw [hs1, hw1]; omega
    rw [dif_pos hall]
    congr 1; funext a; refine Fin.ext ?_
    match a with
    | ⟨0, _⟩ =>
      show (d.start (ix2 e c) idx 0 + d.window (ix2 e c) 0).toNat = p.val
      rw [hs0, hw0, ht]; omega
    | ⟨1, _⟩ =>
      show (d.start (ix2 e c) idx 1 + d.window (ix2 e c) 1).toNat = c.val
      rw [hs1, hw1]; omega

/-- A row scatter-add at entry `(p, k)`: the operand's entry plus the update entries `(e, k)` of the rows `e` whose
    start index is `p`. -/
theorem scatterAdd_rows_apply {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec ⟨2, ![E, 1]⟩ w)
    (upd : (⟨2, ![E, C]⟩ : Shape).Idx → EReal) (p : Fin N) (k : Fin C) :
    Ideal.hostScatterAdd d x idx upd (ix2 p k)
      = x (ix2 p k) + ∑ e : Fin E, if (idx (ix2 e (0 : Fin 1))).toInt = (p.val : Int) then upd (ix2 e k) else 0 := by
  unfold Ideal.hostScatterAdd
  congr 1
  rw [Finset.sum_filter, sum_idx2]
  refine Finset.sum_congr rfl fun e _ => ?_
  by_cases ht : (idx (ix2 e (0 : Fin 1))).toInt = (p.val : Int)
  · rw [if_pos ht, Finset.sum_eq_single k]
    · rw [if_pos ((rows_resultIdx d h1 h2 h3 h4 idx e k p k).mpr ⟨ht, rfl⟩)]
    · intro c _ hc
      rw [if_neg (fun h => hc ((rows_resultIdx d h1 h2 h3 h4 idx e c p k).mp h).2)]
    · intro h; exact absurd (Finset.mem_univ k) h
  · rw [if_neg ht]
    refine Finset.sum_eq_zero fun c _ => ?_
    rw [if_neg (fun h => ht ((rows_resultIdx d h1 h2 h3 h4 idx e c p k).mp h).1)]

/-! ## The same for a vector: operand [N], scatter indices [E, 1], updates [E] -/

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Update entry `e` of a vector scatter lands on operand entry `p` exactly when its start index is `p`. -/
theorem elems_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (p : Fin N) :
    d.resultIdx? (ix1 e) idx = some (ix1 p) ↔ (idx (ix2 e (0 : Fin 1))).toInt = (p.val : Int) := by
  have hs0 : d.start (ix1 e) idx 0 = (idx (ix2 e (0 : Fin 1))).toInt := by
    obtain ⟨uw, iw, sd, iv, wf⟩ := d
    dsimp only at h1 h2 h3 h4
    subst h1 h2 h3 h4
    unfold ScatterDims.start
    rw [dif_pos (List.mem_singleton.mpr rfl)]
    refine congrArg (fun z : (⟨2, ![E, 1]⟩ : Shape).Idx => (idx z).toInt) ?_
    funext b; refine Fin.ext ?_
    match b with
    | ⟨0, _⟩ => rfl
    | ⟨1, _⟩ => rfl
  have hw0 : d.window (ix1 e) 0 = 0 := by
    obtain ⟨uw, iw, sd, iv, wf⟩ := d
    dsimp only at h1 h2 h3 h4
    subst h1 h2 h3 h4
    unfold ScatterDims.window
    rw [dif_neg (by simp [ScatterDims.sKept, Shape.kept])]
  constructor
  · intro h
    unfold ScatterDims.resultIdx? at h
    split at h
    · next hall =>
      have hv := Option.some.inj h
      have v0 : (d.start (ix1 e) idx 0 + d.window (ix1 e) 0).toNat = p.val := congrArg Fin.val (congrFun hv 0)
      have h0 := (hall 0).1
      rw [hs0, hw0] at v0 h0
      omega
    · exact absurd h (by simp)
  · intro ht
    unfold ScatterDims.resultIdx?
    have hall : ∀ a, 0 ≤ d.start (ix1 e) idx a + d.window (ix1 e) a ∧
        d.start (ix1 e) idx a + d.window (ix1 e) a < (⟨1, ![N]⟩ : Shape).size a := by
      intro a
      match a with
      | ⟨0, _⟩ =>
        have := p.isLt
        show 0 ≤ d.start (ix1 e) idx 0 + d.window (ix1 e) 0 ∧ d.start (ix1 e) idx 0 + d.window (ix1 e) 0 < (N : Int)
        rw [hs0, hw0, ht]; omega
    rw [dif_pos hall]
    congr 1; funext a; refine Fin.ext ?_
    match a with
    | ⟨0, _⟩ =>
      show (d.start (ix1 e) idx 0 + d.window (ix1 e) 0).toNat = p.val
      rw [hs0, hw0, ht]; omega

/-- A vector scatter-add at entry `p`: the operand's entry plus the update entries `e` whose start index is `p`. -/
theorem scatterAdd_elems_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![E, 1]⟩ w)
    (upd : (⟨1, ![E]⟩ : Shape).Idx → EReal) (p : Fin N) :
    Ideal.hostScatterAdd d x idx upd (ix1 p)
      = x (ix1 p) + ∑ e : Fin E, if (idx (ix2 e (0 : Fin 1))).toInt = (p.val : Int) then upd (ix1 e) else 0 := by
  unfold Ideal.hostScatterAdd
  congr 1
  rw [Finset.sum_filter, sum_idx1]
  refine Finset.sum_congr rfl fun e _ => ?_
  by_cases ht : (idx (ix2 e (0 : Fin 1))).toInt = (p.val : Int)
  · rw [if_pos ht, if_pos ((elems_resultIdx d h1 h2 h3 h4 idx e p).mpr ht)]
  · rw [if_neg ht, if_neg (fun h => ht ((elems_resultIdx d h1 h2 h3 h4 idx e p).mp h))]

end Cert.LibScatterAddRows

end
-- ==== Proof.Region0.lean ====
/-
  Region 0 of the layer at the ideal values (floats are extended reals, the narrowing to 16 bits is the identity).
  The region walks 25 blocks of 4000 rows. At each it multiplies the block of the feature array `x` (4000 × 128) by
  the whole weight matrix `W` (128 × 128) and scales row `p` of the product by the row's entry of the one-column array
  `d`. So entry `(p, q)` of the array it writes is

      (∑ₖ x(p, k) · W(k, q)) · d(p, 0),

  each array read as the region finds it. First the arithmetic of one block at an entry; then the blocks are
  rows `4000 t … 4000 t + 3999` of the arrays, every row is in the block of the point `row / 4000`, and so the array
  after the last point is that one function of the three arrays.
-/
import proofs.«144689_j40931038331316_2_alg».proof.Proof.Gen.KernelIdeal.Frame
import proofs.«144689_j40931038331316_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open scoped BigOperators
namespace Cert.KernelIdeal.Region0
open Cert.KernelIdeal Cert.KernelIdeal.Gen Idealize.ShloMosaic Idealize.ShloMosaic.ValueIdx Idealize.ShloMosaic.TcCoe Idealize.SL.Sem

/-! ## The body's arithmetic at an entry of a block -/

/-- The two zero offsets, spelt as the constant function. -/
theorem zero_offsets : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row coordinate of the left operand's index under the product's dimension numbers is the output's row. -/
theorem lhs_row (i : S4000x128.Idx) (r : dot_S4000x128_S128x128_S4000x128_1_0_0_1_n_n.contr.Idx) :
    (dot_S4000x128_S128x128_S4000x128_1_0_0_1_n_n.lhsIdx i r 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
/-- Its column coordinate is the contracted coordinate. -/
theorem lhs_col (i : S4000x128.Idx) (r : dot_S4000x128_S128x128_S4000x128_1_0_0_1_n_n.contr.Idx) :
    (dot_S4000x128_S128x128_S4000x128_1_0_0_1_n_n.lhsIdx i r 1).val = (r ⟨0, by decide⟩).val :=
  dot_S4000x128_S128x128_S4000x128_1_0_0_1_n_n.lhsIdx_val_of_single rfl i r
/-- The row coordinate of the right operand's index is the contracted coordinate. -/
theorem rhs_row (i : S4000x128.Idx) (r : dot_S4000x128_S128x128_S4000x128_1_0_0_1_n_n.contr.Idx) :
    (dot_S4000x128_S128x128_S4000x128_1_0_0_1_n_n.rhsIdx i r 0).val = (r ⟨0, by decide⟩).val :=
  dot_S4000x128_S128x128_S4000x128_1_0_0_1_n_n.rhsIdx_val_of_single rfl i r
/-- Its column coordinate is the output's column. -/
theorem rhs_col (i : S4000x128.Idx) (r : dot_S4000x128_S128x128_S4000x128_1_0_0_1_n_n.contr.Idx) :
    (dot_S4000x128_S128x128_S4000x128_1_0_0_1_n_n.rhsIdx i r 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product of a `[4000, 128]` block with the `[128, 128]` matrix into the zero accumulator, at entry `(p, q)`:
    the sum over the contracted axis of the products of row `p` of the block with column `q` of the matrix. -/
theorem matmul_entry (x : FVec Ideal S4000x128 .bf16) (w : FVec Ideal S128x128 .bf16) (p : Fin 4000) (q : Fin 128) :
    matmul dot_S4000x128_S128x128_S4000x128_1_0_0_1_n_n none x w (constant S4000x128 .f32 0x00000000#32) (ix2 p q)
      = ∑ k : Fin 128, x (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- What the body stores, at entry `(p, q)` of its block: row `p` of the feature block times column `q` of the weight
    matrix, scaled by the row's entry of the column block. -/
theorem stored_entry (x : Vec Ideal S4000x128 .f32) (w : Vec Ideal S128x128 .f32) (d : Vec Ideal S4000x1 .f32)
    (p : Fin 4000) (q : Fin 128) :
    k0_pay1 x w d (ix2 p q) = (∑ k : Fin 128, x (ix2 p k) * w (ix2 k q)) * d (ix2 p (0 : Fin 1)) := by
  unfold k0_pay1
  rw [mulf_apply, matmul_entry, broadcastTo_a1_ab_apply, shapeCast_self]
  rfl

/-! ## From the blocks to the array -/

/-- The array the region leaves, as one function of the three arrays it reads: entry `(r, q)` is row `r` of the
    features times column `q` of the weights, scaled by row `r` of the column. -/
abbrev scaledProduct (X : S100000x128.Idx → EReal) (W : S128x128.Idx → EReal) (D : S100000x1.Idx → EReal) :
    S100000x128.Idx → EReal := fun i =>
  (∑ k : Fin 128, X (ix2 (⟨(i 0).val, idx2_lt0 i⟩ : Fin 100000) k) * W (ix2 k (⟨(i 1).val, idx2_lt1 i⟩ : Fin 128)))
    * D (ix2 (⟨(i 0).val, idx2_lt0 i⟩ : Fin 100000) (0 : Fin 1))

/-- What the body stores at an entry `j` of its block is the array function at `i`, as soon as the three blocks it
    read hold, along row `j 0` and column `j 1`, what the arrays hold along row `i 0` and column `i 1`. -/
theorem stored_eq_scaledProduct (x : Vec Ideal S4000x128 .f32) (w : Vec Ideal S128x128 .f32) (d : Vec Ideal S4000x1 .f32)
    (X : S100000x128.Idx → EReal) (W : S128x128.Idx → EReal) (D : S100000x1.Idx → EReal)
    (j : S4000x128.Idx) (i : S100000x128.Idx)
    (hx : ∀ k : Fin 128, x (ix2 (⟨(j 0).val, idx2_lt0 j⟩ : Fin 4000) k) = X (ix2 (⟨(i 0).val, idx2_lt0 i⟩ : Fin 100000) k))
    (hw : ∀ k : Fin 128, w (ix2 k (⟨(j 1).val, idx2_lt1 j⟩ : Fin 128)) = W (ix2 k (⟨(i 1).val, idx2_lt1 i⟩ : Fin 128)))
    (hd : d (ix2 (⟨(j 0).val, idx2_lt0 j⟩ : Fin 4000) (0 : Fin 1)) = D (ix2 (⟨(i 0).val, idx2_lt0 i⟩ : Fin 100000) (0 : Fin 1))) :
    k0_pay1 x w d j = scaledProduct X W D i := by
  obtain ⟨p, q, rfl⟩ : ∃ (p : Fin 4000) (q : Fin 128), j = ix2 p q := ⟨j 0, j 1, eq_ix2 j⟩
  rw [stored_entry]
  exact congrArg₂ (· * ·) (Finset.sum_congr rfl fun k _ => congrArg₂ (· * ·) (hx k) (hw k)) hd

/-- The windows' block indices, decided over the 25 grid points: at point `t` the three tiled windows sit at block row `t`, block
    column `0`; the weight matrix's one block at `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Blocks

-- the contents of the buffers when the region is entered
variable (V : (c : Dev nD) → (b : Ref sig .tc) → Buf (Elt Ideal) ((c : Thread nD τ).loc b))

/-- The feature window's block at point `t` is rows `4000 t … 4000 t + 3999` of the feature array. -/
theorem feature_block (c : Dev nD) (t : Fin cfg0.N) (y : S4000x128.Idx) (i : S100000x128.Idx)
    (h0 : (i 0).val = 4000 * t.val + (y 0).val) (h1 : (i 1).val = (y 1).val) :
    (iblk0 V c 0 t : Vec Ideal S4000x128 .f32) y = (V c main_arg0 : S100000x128.Idx → EReal) i := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The weight window's one block is the weight matrix, at every point. -/
theorem weight_block (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg2 : S128x128.Idx → EReal) i := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t (0 : Fin 2) * 128 + 1 * (y 0).val = (i 0).val; rw [e0, h0]; omega
  | ⟨1, _⟩ => show win0_1.index t (1 : Fin 2) * 128 + 1 * (y 1).val = (i 1).val; rw [e1, h1]; omega

/-- The column window's block at point `t` is rows `4000 t … 4000 t + 3999` of the column. -/
theorem column_block (c : Dev nD) (t : Fin cfg0.N) (y : S4000x1.Idx) (i : S100000x1.Idx)
    (h0 : (i 0).val = 4000 * t.val + (y 0).val) (h1 : (i 1).val = (y 1).val) :
    (iblk0 V c 2 t : Vec Ideal S4000x1 .f32) y = (V c main_v11 : S100000x1.Idx → EReal) i := by
  obtain ⟨-, -, -, -, e0, e1, -⟩ := block_indices t
  unfold iblk0
  rw [View.read_apply]
  show V c main_v11 _ = V c main_v11 _
  congr 1
  funext a
  apply Fin.ext
  match a with
  | ⟨0, _⟩ => show win0_2.index t (0 : Fin 2) * 4000 + 1 * (y 0).val = (i 0).val; rw [e0, h0]; omega
  | ⟨1, _⟩ => show win0_2.index t (1 : Fin 2) * 1 + 1 * (y 1).val = (i 1).val; rw [e1, h1]; omega

/-- What point `t` writes back is block `t` of the array function of the three arrays as the region finds them. -/
theorem written_block (c : Dev nD) (t : Fin cfg0.N) :
    (dat0 V c).flushed 3 t
      = ((cfg0.win 3).blk t).view.read (Elt Ideal) (scaledProduct (V c main_arg0) (V c main_arg2) (V c main_v11)) := by
  show (cfg0.win 3).cut (grid0.coords t) ((dat0 V c).after 3 t) = _
  rw [after0_3]
  unfold out0_3
  rw [View.canon_unit_zero zero_offsets]
  simp only [View.ld_unit_zero (S := S4000x128) zero_offsets, View.ld_unit_zero (S := S128x128) zero_offsets,
    View.ld_unit_zero (S := S4000x1) zero_offsets]
  obtain ⟨-, -, -, -, -, -, e0, e1⟩ := block_indices t
  funext j
  have r0 : ((((cfg0.win 3).blk t).view.emb j) 0).val = 4000 * t.val + (j 0).val := by
    show win0_3.index t (0 : Fin 2) * 4000 + 1 * (j 0).val = _; rw [e0]; omega
  have r1 : ((((cfg0.win 3).blk t).view.emb j) 1).val = (j 1).val := by
    show win0_3.index t (1 : Fin 2) * 128 + 1 * (j 1).val = _; rw [e1]; omega
  refine stored_eq_scaledProduct (iblk0 V c 0 t) (iblk0 V c 1 t) (iblk0 V c 2 t) (V c main_arg0) (V c main_arg2) (V c main_v11)
    j (((cfg0.win 3).blk t).view.emb j) (fun k => ?_) (fun k => ?_) ?_
  · exact feature_block V c t _ _ r0 rfl
  · exact weight_block V c t _ _ rfl r1
  · exact column_block V c t _ _ r0 rfl

/-- An index of the array is in point `t`'s block iff each coordinate is in the block's range on its axis. -/
theorem mem_block (t : Fin cfg0.N) (i : S100000x128.Idx) :
    i ∈ ((cfg0.win 3).blk t).view.set
      ↔ ∀ a : Fin 2, win0_3.index t a * S4000x128.size a ≤ (i a).val ∧ (i a).val < win0_3.index t a * S4000x128.size a + S4000x128.size a := by
  show i ∈ ((View.whole main_v12).slice (win0_3.rect t)).set ↔ _
  rw [View.set_slice_whole, Rect.mem_set_unit]
  exact Iff.rfl

/-- Every index of the array is in some point's block: row `r` is in the block of point `r / 4000`. -/
theorem covered (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 25 := N_0
  have ht : (i 0).val / 4000 < cfg0.N := by rw [hN]; omega
  obtain ⟨-, -, -, -, -, -, e0, e1⟩ := block_indices ⟨(i 0).val / 4000, ht⟩
  refine ⟨⟨(i 0).val / 4000, ht⟩, flush0_3 _, ?_⟩
  rw [mem_block]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, ht⟩ (1 : Fin 2) * 128 ≤ (i 1).val
      ∧ (i 1).val < win0_3.index ⟨(i 0).val / 4000, ht⟩ (1 : Fin 2) * 128 + 128
    rw [e1]; omega

/-- The array after the region's last point is the array function of the three arrays the region found. -/
theorem array_eq (c : Dev nD) :
    (dat0 V c).arrAt 3 cfg0.N = scaledProduct (V c main_arg0) (V c main_arg2) (V c main_v11) :=
  (dat0 V c).arrAt_eq_of_cover 3 _ (fun t _ => written_block V c t) covered

end Blocks

/-- THE REGION'S VALUE: entry `(p, q)` of the array the region writes is row `p` of the features times column `q` of
    the weights, scaled by row `p` of the column — all three as the region finds them. -/
theorem value (V : (c : Dev nD) → (b : Ref sig .tc) → Buf (Elt Ideal) ((c : Thread nD τ).loc b)) (c : Dev nD)
    (p : Fin 100000) (q : Fin 128) :
    Cert.Spec.rd2 (n0 := 100000) (n1 := 128) ((dat0 (F := Ideal) V c).arrAt 3 cfg0.N) p q
      = (∑ k : Fin 128, Cert.Spec.rd2 (n0 := 100000) (n1 := 128) (V c main_arg0) p k * Cert.Spec.rd2 (n0 := 128) (n1 := 128) (V c main_arg2) k q)
          * Cert.Spec.rd2 (n0 := 100000) (n1 := 1) (V c main_v11) p 0 := by
  rw [array_eq V c]

end Cert.KernelIdeal.Region0
end
-- ==== Proof.KernelHost.lean ====
/-
  The idealized kernel's host stretches, read as terms of the launch arrays. Between the launch and the second region
  the program computes, on the host: the edges' source and end words (rows 0 and 1 of the edge list), every node's
  degree factor (the reciprocal square root of one plus the number of edges ending at it), and, after the first region,
  the aggregate (the first region's rows taken at the edges' sources and summed into the edges' ends). This module names
  those terms and says which buffer holds which at each boundary of the run: after the first host stretch, at the first
  region's exit, and at the second region's entry. It also reads the first region's output entry by entry over the
  launch arrays.
-/
import proofs.«144689_j40931038331316_2_alg».proof.Proof.KernelRun
import proofs.«144689_j40931038331316_2_alg».proof.Proof.Spec
import proofs.«144689_j40931038331316_2_alg».proof.Proof.GraphSpec
import proofs.«144689_j40931038331316_2_alg».proof.Proof.LibGatherRows
import proofs.«144689_j40931038331316_2_alg».proof.Proof.LibScatterAddRows
import proofs.«144689_j40931038331316_2_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
open scoped BigOperators
namespace Cert.KernelIdeal.KernelValue
open Cert.KernelIdeal Cert.KernelIdeal.Gen Idealize.ShloMosaic Idealize.ShloMosaic.ValueIdx Idealize.ShloMosaic.TcCoe Idealize.SL.Sem

/-- Entry `a` of a rank-1 array of extended reals. -/
abbrev rd1 {n : Nat} (f : (⟨1, ![n]⟩ : Shape).Idx → EReal) (a : Fin n) : EReal := f (ix1 a)

/-- The edges' end nodes: row 1 of the edge list. -/
def dstWords (a1 : (⟨S2x1600000, .i32⟩ : BufTy).Contents (Elt Ideal)) : IVec S1600000 32 :=
  shapeCast S1600000 (extractStridedSlice S1x1600000 ![1, 0] a1 slices_S2x1600000_S1x1600000_1_0) shapeCasts_S1x1600000_S1600000

/-- The edges' source nodes: row 0 of the edge list. -/
def srcWords (a1 : (⟨S2x1600000, .i32⟩ : BufTy).Contents (Elt Ideal)) : IVec S1600000 32 :=
  shapeCast S1600000 (extractStridedSlice S1x1600000 ![0, 0] a1 slices_S2x1600000_S1x1600000_0_0) shapeCasts_S1x1600000_S1600000

/-- The column of source rows the gather reads: a negative source word counted from the end of the table. -/
def srcColumn (a1 : (⟨S2x1600000, .i32⟩ : BufTy).Contents (Elt Ideal)) : IVec S1600000x1 32 :=
  broadcastInDim S1600000x1 ![0] bcast_S1600000_S1600000x1_0
    (select (cmpi .slt (srcWords a1) (broadcastInDim S1600000 ![] bcast_S_S1600000 (constantI S_ 32 0#32)))
      (addi (srcWords a1) (broadcastInDim S1600000 ![] bcast_S_S1600000 (constantI S_ 32 100000#32)))
      (srcWords a1))

/-- Every node's degree factor: the reciprocal square root of one more than the number of edges that end at it. -/
def factorVec (a1 : (⟨S2x1600000, .i32⟩ : BufTy).Contents (Elt Ideal)) : FVec Ideal S100000 .f32 :=
  Host.rsqrt (addf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dstWords a1))
      (broadcastInDim S1600000 ![] bcast_S_S1600000 (constant (F := Ideal) S_ .f32 0x3F800000#32)))
    (broadcastInDim S100000 ![] bcast_S_S100000 (constant (F := Ideal) S_ .f32 0x3F800000#32)))

/-- The sum, into every node's row, of the rows of the table `Y` at the sources of the edges that end at the node. -/
def aggArr (Y : (⟨S100000x128, .f32⟩ : BufTy).Contents (Elt Ideal)) (a1 : (⟨S2x1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstWords a1))
    (Host.gather gather_S100000x128_S1600000x1_S1600000x128_1_0_n_n_0_1_1128 Y (srcColumn a1))

/-! ## Two layout steps read at an entry -/

/-- An `[a]` array cast to one column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector of words as one column reads, at `(e, 0)`, the vector at `e`. -/
theorem wordColumn_apply (v : IVec S1600000 32) (e : Fin 1600000) :
    broadcastInDim S1600000x1 ![0] bcast_S1600000_S1600000x1_0 v (ix2 e (0 : Fin 1)) = v (ix1 e) :=
  broadcastInDim_apply _ bcast_S1600000_S1600000x1_0 v (ix2 e (0 : Fin 1)) (ix1 e) (fun a => match a with
    | ⟨0, _⟩ => by show e.val = if (1600000 : Nat) = 1 then 0 else e.val; rw [if_neg (by decide)])

section Host
variable (m : (ℓ : Loc nD τ sig) → Buf (Elt Ideal) ℓ) (ρ : Dev nD → PrngReg)

/-! ## After the first stretch of host operations (the first region's entry) -/

/-- The source words are row 0 of the edge list … -/
theorem W1_src (c : Dev nD) :
    W1 m ρ c (Proc.devRef .tc main_v1) = srcWords (m ((c.tc : Thread nD τ).loc main_arg1)) := by
  show StableHlo.after hostOps0 (W0 m ρ c) (Proc.devRef .tc main_v1) = _
  after_results
  rfl

/-- … the end words row 1 … -/
theorem W1_dst (c : Dev nD) :
    W1 m ρ c (Proc.devRef .tc main_v3) = dstWords (m ((c.tc : Thread nD τ).loc main_arg1)) := by
  show StableHlo.after hostOps0 (W0 m ρ c) (Proc.devRef .tc main_v3) = _
  after_results
  rfl

/-- … the factor vector is that of the end words … -/
theorem W1_factor (c : Dev nD) :
    W1 m ρ c (Proc.devRef .tc main_v10) = factorVec (m ((c.tc : Thread nD τ).loc main_arg1)) := by
  show StableHlo.after hostOps0 (W0 m ρ c) (Proc.devRef .tc main_v10) = _
  after_results
  rfl

/-- … and the first region's column operand is the factor vector as one column. -/
theorem W1_factorColumn (c : Dev nD) :
    W1 m ρ c (Proc.devRef .tc main_v11)
      = shapeCast S100000x1 (factorVec (m ((c.tc : Thread nD τ).loc main_arg1))) shapeCasts_S100000_S100000x1 := by
  show StableHlo.after hostOps0 (W0 m ρ c) (Proc.devRef .tc main_v11) = _
  after_results
  rfl

/-- No host operation writes an argument: the features … -/
theorem W1_arg0 (c : Dev nD) : W1 m ρ c (Proc.devRef .tc main_arg0) = m ((c.tc : Thread nD τ).loc main_arg0) := by
  show StableHlo.after hostOps0 (W0 m ρ c) (Proc.devRef .tc main_arg0) = _
  after_results
/-- … the weights … -/
theorem W1_arg2 (c : Dev nD) : W1 m ρ c (Proc.devRef .tc main_arg2) = m ((c.tc : Thread nD τ).loc main_arg2) := by
  show StableHlo.after hostOps0 (W0 m ρ c) (Proc.devRef .tc main_arg2) = _
  after_results
/-- … the bias … -/
theorem W1_arg3 (c : Dev nD) : W1 m ρ c (Proc.devRef .tc main_arg3) = m ((c.tc : Thread nD τ).loc main_arg3) := by
  show StableHlo.after hostOps0 (W0 m ρ c) (Proc.devRef .tc main_arg3) = _
  after_results
/-- … the scale … -/
theorem W1_arg4 (c : Dev nD) : W1 m ρ c (Proc.devRef .tc main_arg4) = m ((c.tc : Thread nD τ).loc main_arg4) := by
  show StableHlo.after hostOps0 (W0 m ρ c) (Proc.devRef .tc main_arg4) = _
  after_results
/-- … and the shift are as launched. -/
theorem W1_arg5 (c : Dev nD) : W1 m ρ c (Proc.devRef .tc main_arg5) = m ((c.tc : Thread nD τ).loc main_arg5) := by
  show StableHlo.after hostOps0 (W0 m ρ c) (Proc.devRef .tc main_arg5) = _
  after_results

/-! ## At the first region's exit: its output array at what its write-backs leave, everything else as entered -/

theorem W2_src (c : Dev nD) : W2 m ρ c (Proc.devRef .tc main_v1) = srcWords (m ((c.tc : Thread nD τ).loc main_arg1)) :=
  (W2_of_ne m ρ c main_v1 (by decide)).trans (W1_src m ρ c)
theorem W2_dst (c : Dev nD) : W2 m ρ c (Proc.devRef .tc main_v3) = dstWords (m ((c.tc : Thread nD τ).loc main_arg1)) :=
  (W2_of_ne m ρ c main_v3 (by decide)).trans (W1_dst m ρ c)
theorem W2_factor (c : Dev nD) : W2 m ρ c (Proc.devRef .tc main_v10) = factorVec (m ((c.tc : Thread nD τ).loc main_arg1)) :=
  (W2_of_ne m ρ c main_v10 (by decide)).trans (W1_factor m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
/-- The features are an input window of the first region: it leaves them as it found them. -/
theorem W2_arg0 (c : Dev nD) : W2 m ρ c (Proc.devRef .tc main_arg0) = m ((c.tc : Thread nD τ).loc main_arg0) :=
  ((W2_arr m ρ c 0).trans (((dat0 (V1 m ρ) c).arrAt_in 0 rfl _).trans (A_eq0 (V1 m ρ) c 0))).trans (W1_arg0 m ρ c)
/-- The first region's output array. -/
theorem W2_product (c : Dev nD) : W2 m ρ c (Proc.devRef .tc main_v12) = (dat0 (V1 m ρ) c).arrAt 3 cfg0.N :=
  W2_arr m ρ c 3

/-! ## After the second stretch of host operations (the second region's entry) -/

/-- The aggregate: the first region's rows gathered at the edges' sources and summed into the edges' ends. -/
theorem V3_aggregate (c : Dev nD) :
    V3 m ρ c main_v22 = aggArr ((dat0 (V1 m ρ) c).arrAt 3 cfg0.N) (m ((c.tc : Thread nD τ).loc main_arg1)) := by
  show StableHlo.after hostOps1 (W2 m ρ c) (Proc.devRef .tc main_v22) = _
  after_results
  rw [W2_src, W2_dst, W2_product]
  rfl

/-- The first region's output array is not written again. -/
theorem V3_product (c : Dev nD) : V3 m ρ c main_v12 = (dat0 (V1 m ρ) c).arrAt 3 cfg0.N := by
  show StableHlo.after hostOps1 (W2 m ρ c) (Proc.devRef .tc main_v12) = _
  after_results
  exact W2_product m ρ c

/-- The second region's column operand is the factor vector as one column. -/
theorem V3_factorColumn (c : Dev nD) :
    V3 m ρ c main_v23 = shapeCast S100000x1 (factorVec (m ((c.tc : Thread nD τ).loc main_arg1))) shapeCasts_S100000_S100000x1 := by
  show StableHlo.after hostOps1 (W2 m ρ c) (Proc.devRef .tc main_v23) = _
  after_results
  rw [W2_factor]
  rfl

theorem V3_arg0 (c : Dev nD) : V3 m ρ c main_arg0 = m ((c.tc : Thread nD τ).loc main_arg0) := by
  show StableHlo.after hostOps1 (W2 m ρ c) (Proc.devRef .tc main_arg0) = _
  after_results
  exact W2_arg0 m ρ c

/-- The bias, the scale and the shift as one row each. -/
theorem V3_biasRow (c : Dev nD) :
    V3 m ρ c main_v24 = shapeCast S1x128 (m ((c.tc : Thread nD τ).loc main_arg3)) shapeCasts_S128_S1x128 := by
  show StableHlo.after hostOps1 (W2 m ρ c) (Proc.devRef .tc main_v24) = _
  after_results
  rw [W2_arg3]
  rfl
theorem V3_scaleRow (c : Dev nD) :
    V3 m ρ c main_v25 = shapeCast S1x128 (m ((c.tc : Thread nD τ).loc main_arg4)) shapeCasts_S128_S1x128 := by
  show StableHlo.after hostOps1 (W2 m ρ c) (Proc.devRef .tc main_v25) = _
  after_results
  rw [W2_arg4]
  rfl
theorem V3_shiftRow (c : Dev nD) :
    V3 m ρ c main_v26 = shapeCast S1x128 (m ((c.tc : Thread nD τ).loc main_arg5)) shapeCasts_S128_S1x128 := by
  show StableHlo.after hostOps1 (W2 m ρ c) (Proc.devRef .tc main_v26) = _
  after_results
  rw [W2_arg5]
  rfl

/-- Entry `(r, k)` of the first region's output array, over the launch arrays: row `r` of the features times column
    `k` of the weights, scaled by node `r`'s factor. -/
theorem product_entry (c : Dev nD) (r : Fin 100000) (k : Fin 128) :
    Cert.Spec.rd2 (n0 := 100000) (n1 := 128) ((dat0 (V1 m ρ) c).arrAt 3 cfg0.N) r k
      = (∑ j : Fin 128, Cert.Spec.rd2 (n0 := 100000) (n1 := 128) (m ((c.tc : Thread nD τ).loc main_arg0)) r j
                        * Cert.Spec.rd2 (n0 := 128) (n1 := 128) (m ((c.tc : Thread nD τ).loc main_arg2)) j k)
          * factorVec (m ((c.tc : Thread nD τ).loc main_arg1)) (ix1 r) := by
  rw [Cert.KernelIdeal.Region0.value (V1 m ρ) c r k]
  show (∑ j : Fin 128, Cert.Spec.rd2 (n0 := 100000) (n1 := 128) (W1 m ρ c (Proc.devRef .tc main_arg0)) r j
                        * Cert.Spec.rd2 (n0 := 128) (n1 := 128) (W1 m ρ c (Proc.devRef .tc main_arg2)) j k)
          * Cert.Spec.rd2 (n0 := 100000) (n1 := 1) (W1 m ρ c (Proc.devRef .tc main_v11)) r 0 = _
  rw [W1_arg0, W1_arg2, W1_factorColumn]
  exact congrArg _ (shapeCast_a_a1_apply _ _ r 0)
end Host

end Cert.KernelIdeal.KernelValue
end
-- ==== Proof.KernelEntries.lean ====
/-
  The host terms of the idealized kernel read entry by entry, on the extended reals. A node's degree factor is the
  reciprocal square root of one plus the number of edges ending at it; the aggregate of a table at `(p, k)` is the sum
  of the table's entries `(source e, k)` over the edges `e` ending at `p`; and so the row the second region normalises
  is the normalised graph convolution's row: the scaled sum over incoming edges, the node's own loop term, the bias and
  the residual input.
-/
import proofs.«144689_j40931038331316_2_alg».proof.Proof.KernelRun
import proofs.«144689_j40931038331316_2_alg».proof.Proof.Spec
import proofs.«144689_j40931038331316_2_alg».proof.Proof.GraphSpec
import proofs.«144689_j40931038331316_2_alg».proof.Proof.LibGatherRows
import proofs.«144689_j40931038331316_2_alg».proof.Proof.LibScatterAddRows
import proofs.«144689_j40931038331316_2_alg».proof.Proof.KernelHost
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
open scoped BigOperators
namespace Cert.KernelIdeal.KernelValue
open Cert.KernelIdeal Cert.KernelIdeal.Gen Idealize.ShloMosaic Idealize.ShloMosaic.ValueIdx Idealize.ShloMosaic.TcCoe Idealize.SL.Sem

/-! ## Small steps at an entry, at the ideal values -/

/-- The host's reciprocal square root of an array, at an entry. -/
theorem hostRsqrt_apply {s : Shape} (x : FVec Ideal s .f32) (i : s.Idx) : Host.rsqrt x i = Ideal.rsqrt (x i) := rfl

/-- The host's scatter-add is the exact sum of the updates that land on each entry. -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- A scalar constant spread over a shape reads the constant's word at every entry. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w := rfl

/-! ## The degree factor at a node -/

/-- Node `r`'s factor: the reciprocal square root of the count of edges ending at `r`, each counted as the unit, plus
    the unit for the node's own loop. -/
theorem factorVec_apply (a1 : (⟨S2x1600000, .i32⟩ : BufTy).Contents (Elt Ideal)) (r : Fin 100000) :
    factorVec a1 (ix1 r)
      = Ideal.rsqrt (Cert.GraphSpec.count (E := 1600000) (Ideal.ofBits .f32 0x3F800000#32)
          (fun e => (dstWords a1 (ix1 e)).toInt) r + Ideal.ofBits .f32 0x3F800000#32) := by
  unfold factorVec
  rw [hostRsqrt_apply, addf_apply, hostScatterAdd_eq, Cert.LibScatterAddRows.scatterAdd_elems_apply _ rfl rfl rfl rfl,
    splat_apply, splat_apply, Ideal.ofBits_zero_f32, zero_add]
  unfold Cert.GraphSpec.count
  refine congrArg (fun s => Ideal.rsqrt (s + Ideal.ofBits .f32 0x3F800000#32)) (Finset.sum_congr rfl fun e _ => ?_)
  rw [wordColumn_apply, splat_apply]

/-! ## The aggregate at an entry -/

/-- Entry `(p, k)` of the aggregate of a table `Y`: the sum, over the edges that end at node `p`, of `Y`'s entry at
    the edge's source row and column `k`. -/
theorem aggArr_apply (Y : (⟨S100000x128, .f32⟩ : BufTy).Contents (Elt Ideal))
    (a1 : (⟨S2x1600000, .i32⟩ : BufTy).Contents (Elt Ideal)) (p : Fin 100000) (k : Fin 128) :
    aggArr Y a1 (ix2 p k)
      = ∑ e : Fin 1600000, if (dstWords a1 (ix1 e)).toInt = (p.val : Int)
          then Y (ix2 (Cert.LibGatherRows.row (N := 100000) (by decide) (srcColumn a1) e) k) else 0 := by
  unfold aggArr
  rw [hostScatterAdd_eq, Cert.LibScatterAddRows.scatterAdd_rows_apply _ rfl rfl rfl rfl, splat_apply,
    Ideal.ofBits_zero_f32, zero_add]
  refine Finset.sum_congr rfl fun e _ => ?_
  rw [wordColumn_apply,
    Cert.LibGatherRows.gather_rows_apply (N := 100000) (by decide) gather_S100000x128_S1600000x1_S1600000x128_1_0_n_n_0_1_1128
      rfl rfl rfl rfl rfl rfl rfl]

/-! ## The second region's pre-normalisation row -/

/-- What the second region normalises, at node `p` and feature `k`, is the graph convolution's row: for any table `P`
    whose entry `(r, k)` is the projected feature `xw r k` scaled by node `r`'s factor. -/
theorem row_eq_kernelRow (P a0 : (⟨S100000x128, .f32⟩ : BufTy).Contents (Elt Ideal))
    (a1 : (⟨S2x1600000, .i32⟩ : BufTy).Contents (Elt Ideal)) (a3 : (⟨S128, .f32⟩ : BufTy).Contents (Elt Ideal))
    (xw : Fin 100000 → Fin 128 → EReal)
    (hP : ∀ (r : Fin 100000) (k : Fin 128), Cert.Spec.rd2 (n0 := 100000) (n1 := 128) P r k = xw r k * factorVec a1 (ix1 r))
    (p : Fin 100000) (k : Fin 128) :
    Cert.Spec.rd2 (n0 := 100000) (n1 := 128) (aggArr P a1) p k
          * Cert.Spec.rd2 (n0 := 100000) (n1 := 1) (shapeCast S100000x1 (factorVec a1) shapeCasts_S100000_S100000x1) p 0
        + Cert.Spec.rd2 (n0 := 100000) (n1 := 128) P p k
          * Cert.Spec.rd2 (n0 := 100000) (n1 := 1) (shapeCast S100000x1 (factorVec a1) shapeCasts_S100000_S100000x1) p 0
        + Cert.Spec.rd2 (n0 := 1) (n1 := 128) (shapeCast S1x128 a3 shapeCasts_S128_S1x128) 0 k
        + Cert.Spec.rd2 (n0 := 100000) (n1 := 128) a0 p k
      = Cert.GraphSpec.kernelRow (E := 1600000) (Ideal.ofBits .f32 0x3F800000#32)
          (fun e => (dstWords a1 (ix1 e)).toInt)
          (fun e => Cert.LibGatherRows.row (N := 100000) (by decide) (srcColumn a1) e)
          xw (fun k => rd1 (n := 128) a3 k) (fun r k => Cert.Spec.rd2 (n0 := 100000) (n1 := 128) a0 r k) p k := by
  have hP' : ∀ (r : Fin 100000), P (ix2 r k) = xw r k * factorVec a1 (ix1 r) := fun r => hP r k
  unfold Cert.GraphSpec.kernelRow
  dsimp only [Cert.Spec.rd2, rd1]
  rw [aggArr_apply, shapeCast_a_a1_apply, shapeCast_a_1a_apply]
  simp only [hP', factorVec_apply]

end Cert.KernelIdeal.KernelValue
end
-- ==== Proof.Region1A.lean ====
/-
  One entry of the layer-normalisation block. The body's arithmetic on one grid point's blocks — the aggregated and the
  transformed features each scaled by the node's degree factor, the bias and the residual added, then the row's
  mean and variance taken along the 128 features, the row normalised, scaled, shifted and rectified — read at row `r`,
  feature `q` of the block is the specification's `lnRelu` of that row. Everything is over the extended reals, where
  each vector operation reads through an index to the same operation on elements; the two lane sums start from the
  zero word and are the plain sums of the row.
-/
import proofs.«144689_j40931038331316_2_alg».proof.Proof.Gen.KernelIdeal.Skeleton
import proofs.«144689_j40931038331316_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open scoped BigOperators
namespace Cert.KernelIdeal.Region1
open Cert.KernelIdeal Cert.KernelIdeal.Gen Idealize.ShloMosaic Idealize.ShloMosaic.ValueIdx

/-! ## The keepdims forms of a row statistic, read at an index -/

/-- A vector of `a` entries cast to a column `[a, 1]` reads, at `(r, u)`, the vector at `r`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {α : Type} {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum along the 128 lanes of a `[4000, 128]` block, started from the zero word, reads at row `r` the sum of that
    row: the zero word is the sum's neutral element, so nothing is added to the row's terms. -/
theorem laneSum_apply (v : FVec Ideal S4000x128 .f32) (hφ : FTy.f32 = FTy.f32 ∨ FTy.f32 = FTy.bf16)
    (hacc : (0x00000000#32 : BitVec 32) = 0x00000000#32) (r : Fin 4000) :
    multiReduction (F := Ideal) .add [1] S4000 v 0x00000000#32 reduces_S4000x128_S4000 hφ hacc (ix1 r) = ∑ k : Fin 128, v (ix2 r k) := by
  refine (Ideal.multiReduction_add_single v 0x00000000#32 reduces_S4000x128_S4000 hφ hacc (ix1 r)).trans ?_
  refine Finset.sum_congr rfl fun k _ => congrArg v ?_
  funext c
  match c with
  | ⟨0, _⟩ => rfl
  | ⟨1, _⟩ => rfl

/-- A reciprocal square root at an index is the extended reals' one of the element. -/
theorem rsqrt_apply {s : Shape} {φ : FTy} (v : FVec Ideal s φ) (i : s.Idx) : rsqrt v i = Ideal.rsqrt (v i) := rfl

/-! ## The body's value at one entry -/

/-- Entry `(r, q)` of what the body stores, from its seven blocks: with the row
    `h k = a(r,k)·d(r,0) + s(r,k)·d(r,0) + b(0,k) + x(r,k)`, it is the layer normalisation of `h` with scale `g(0,·)` and shift
    `be(0,·)`, rectified, at feature `q`. The pointwise operations and the broadcasts read through the index; each lane sum
    becomes the row's sum; the mean column is read where the second sum's terms use it; the rectifier's zero word is `0`. -/
theorem pay_apply (d : Vec Ideal S4000x1 .f32) (a s x : Vec Ideal S4000x128 .f32) (b g be : Vec Ideal S1x128 .f32)
    (r : Fin 4000) (q : Fin 128) :
    k1_pay1 (k1_pay2 d a s b x g) be (ix2 r q)
      = Cert.Spec.lnRelu (fun k => a (ix2 r k) * d (ix2 r 0) + s (ix2 r k) * d (ix2 r 0) + b (ix2 0 k) + x (ix2 r k))
          (fun k => g (ix2 0 k)) (fun k => be (ix2 0 k)) q := by
  unfold k1_pay1 k1_pay2
  simp only [maximumf_apply, addf_apply, mulf_apply, subf_apply, divf_apply, broadcast_apply, shapeCast_self, rsqrt_apply,
    broadcastTo_1b_ab_apply, broadcastTo_a1_ab_apply, shapeCast_a_a1_apply, Ideal.ofBits_def]
  rw [laneSum_apply, laneSum_apply]
  simp only [addf_apply, mulf_apply, subf_apply, divf_apply, broadcast_apply, shapeCast_self,
    broadcastTo_1b_ab_apply, broadcastTo_a1_ab_apply, shapeCast_a_a1_apply, Ideal.ofBits_def]
  rw [laneSum_apply]
  simp only [addf_apply, mulf_apply, shapeCast_self, broadcastTo_1b_ab_apply, broadcastTo_a1_ab_apply]
  unfold Cert.Spec.lnRelu Cert.Spec.variance Cert.Spec.mean
  rw [Ideal.ofBits_zero_f32]

end Cert.KernelIdeal.Region1
end
-- ==== Proof.Region1B.lean ====
/-
  The rows of region 1's input blocks. At grid point `t` each of the four row-tiled inputs — the aggregated features,
  the transformed features, the column of degree factors, the residual input — holds rows `4000 t … 4000 t + 3999` of its
  array, and each of the three single-row inputs — bias, scale, shift — holds its one row. With these, entry `(r, q)` of what
  the body stores is the specification's layer normalisation of row `4000 t + r` of the arrays, at feature `q`.
-/
import proofs.«144689_j40931038331316_2_alg».proof.Proof.Gen.KernelIdeal.Frame
import proofs.«144689_j40931038331316_2_alg».proof.Proof.Spec
import proofs.«144689_j40931038331316_2_alg».proof.Proof.Region1A
import Idealize.ShloMosaic.Lib.Pipeline.Value
import Idealize.ShloMosaic.Lib.ValueIdx
import Idealize.ShloMosaic.Lib.ValueLayout
import Idealize.ShloMosaic.PureOps.Ideal.Laws

noncomputable section
open scoped BigOperators
namespace Cert.KernelIdeal.Region1
open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- Entry `(p, q)` of the layer's result: the layer normalisation, rectified, of node `p`'s row. -/
def entry (c : Dev nD) (p : Fin 100000) (q : Fin 128) : EReal :=
  Cert.Spec.lnRelu
    (fun k => Cert.Spec.rd2 (n0 := 100000) (n1 := 128) (V c main_v22) p k * Cert.Spec.rd2 (n0 := 100000) (n1 := 1) (V c main_v23) p 0
                + Cert.Spec.rd2 (n0 := 100000) (n1 := 128) (V c main_v12) p k * Cert.Spec.rd2 (n0 := 100000) (n1 := 1) (V c main_v23) p 0
                + Cert.Spec.rd2 (n0 := 1) (n1 := 128) (V c main_v24) 0 k
                + Cert.Spec.rd2 (n0 := 100000) (n1 := 128) (V c main_arg0) p k)
    (fun k => Cert.Spec.rd2 (n0 := 1) (n1 := 128) (V c main_v25) 0 k)
    (fun k => Cert.Spec.rd2 (n0 := 1) (n1 := 128) (V c main_v26) 0 k) q

/-- The result array as one function of the index. -/
def whole (c : Dev nD) : S100000x128.Idx → EReal := fun i => entry V c (i 0) (i 1)

theorem zero_off : (![0, 0] : Fin 2 → Nat) = fun _ => 0 := funext fun a => by fin_cases a <;> rfl

/-- The index maps over the grid: the four row-tiled inputs and the output sit at block `(t, 0)` at point `t`, the three
    single rows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input block as rows of its array -/

/-- Row `r` of the aggregated features' block at point `t` is row `4000 t + r` of the array. -/
theorem agg_block (c : Dev nD) (t : Fin cfg1.N) (r : Fin 4000) (k : Fin 128) (p : Fin 100000) (hp : p.val = t.val * 4000 + r.val) :
    (iblk1 V c 0 t : Vec Ideal S4000x128 .f32) (ix2 r k) = Cert.Spec.rd2 (n0 := 100000) (n1 := 128) (V c main_v22) p k := by
  obtain ⟨e0, e1, -⟩ := idx_facts t
  unfold iblk1
  rw [View.read_apply]
  show V c main_v22 _ = V c main_v22 _
  congr 1
  funext a
  apply Fin.ext
  match a with
  | ⟨0, _⟩ => show win1_0.index t (0 : Fin 2) * 4000 + 1 * r.val = p.val; rw [e0, hp]; omega
  | ⟨1, _⟩ => show win1_0.index t (1 : Fin 2) * 128 + 1 * k.val = k.val; rw [e1]; omega

/-- Row `r` of the transformed features' block at point `t` is row `4000 t + r` of the array. -/
theorem xws_block (c : Dev nD) (t : Fin cfg1.N) (r : Fin 4000) (k : Fin 128) (p : Fin 100000) (hp : p.val = t.val * 4000 + r.val) :
    (iblk1 V c 1 t : Vec Ideal S4000x128 .f32) (ix2 r k) = Cert.Spec.rd2 (n0 := 100000) (n1 := 128) (V c main_v12) p k := by
  obtain ⟨-, -, e0, e1, -⟩ := idx_facts t
  unfold iblk1
  rw [View.read_apply]
  show V c main_v12 _ = V c main_v12 _
  congr 1
  funext a
  apply Fin.ext
  match a with
  | ⟨0, _⟩ => show win1_1.index t (0 : Fin 2) * 4000 + 1 * r.val = p.val; rw [e0, hp]; omega
  | ⟨1, _⟩ => show win1_1.index t (1 : Fin 2) * 128 + 1 * k.val = k.val; rw [e1]; omega

/-- Row `r` of the degree factors' block at point `t` is row `4000 t + r` of the column. -/
theorem dis_block (c : Dev nD) (t : Fin cfg1.N) (r : Fin 4000) (u : Fin 1) (p : Fin 100000) (hp : p.val = t.val * 4000 + r.val) :
    (iblk1 V c 2 t : Vec Ideal S4000x1 .f32) (ix2 r u) = Cert.Spec.rd2 (n0 := 100000) (n1 := 1) (V c main_v23) p 0 := by
  obtain ⟨-, -, -, -, e0, e1, -⟩ := idx_facts t
  unfold iblk1
  rw [View.read_apply]
  show V c main_v23 _ = V c main_v23 _
  congr 1
  funext a
  apply Fin.ext
  match a with
  | ⟨0, _⟩ => show win1_2.index t (0 : Fin 2) * 4000 + 1 * r.val = p.val; rw [e0, hp]; omega
  | ⟨1, _⟩ => show win1_2.index t (1 : Fin 2) * 1 + 1 * u.val = 0; rw [e1]; omega

/-- Row `r` of the residual input's block at point `t` is row `4000 t + r` of the array. -/
theorem x_block (c : Dev nD) (t : Fin cfg1.N) (r : Fin 4000) (k : Fin 128) (p : Fin 100000) (hp : p.val = t.val * 4000 + r.val) :
    (iblk1 V c 3 t : Vec Ideal S4000x128 .f32) (ix2 r k) = Cert.Spec.rd2 (n0 := 100000) (n1 := 128) (V c main_arg0) p k := by
  obtain ⟨-, -, -, -, -, -, e0, e1, -⟩ := idx_facts t
  unfold iblk1
  rw [View.read_apply]
  show V c main_arg0 _ = V c main_arg0 _
  congr 1
  funext a
  apply Fin.ext
  match a with
  | ⟨0, _⟩ => show win1_3.index t (0 : Fin 2) * 4000 + 1 * r.val = p.val; rw [e0, hp]; omega
  | ⟨1, _⟩ => show win1_3.index t (1 : Fin 2) * 128 + 1 * k.val = k.val; rw [e1]; omega

/-- The bias's block at every point is its one row. -/
theorem b_block (c : Dev nD) (t : Fin cfg1.N) (u : Fin 1) (k : Fin 128) :
    (iblk1 V c 4 t : Vec Ideal S1x128 .f32) (ix2 u k) = Cert.Spec.rd2 (n0 := 1) (n1 := 128) (V c main_v24) 0 k := by
  obtain ⟨-, -, -, -, -, -, -, -, e0, e1, -⟩ := idx_facts t
  unfold iblk1
  rw [View.read_apply]
  show V c main_v24 _ = V c main_v24 _
  congr 1
  funext a
  apply Fin.ext
  match a with
  | ⟨0, _⟩ => show win1_4.index t (0 : Fin 2) * 1 + 1 * u.val = 0; rw [e0]; omega
  | ⟨1, _⟩ => show win1_4.index t (1 : Fin 2) * 128 + 1 * k.val = k.val; rw [e1]; omega

/-- The scale's block at every point is its one row. -/
theorem gamma_block (c : Dev nD) (t : Fin cfg1.N) (u : Fin 1) (k : Fin 128) :
    (iblk1 V c 5 t : Vec Ideal S1x128 .f32) (ix2 u k) = Cert.Spec.rd2 (n0 := 1) (n1 := 128) (V c main_v25) 0 k := by
  obtain ⟨-, -, -, -, -, -, -, -, -, -, e0, e1, -⟩ := idx_facts t
  unfold iblk1
  rw [View.read_apply]
  show V c main_v25 _ = V c main_v25 _
  congr 1
  funext a
  apply Fin.ext
  match a with
  | ⟨0, _⟩ => show win1_5.index t (0 : Fin 2) * 1 + 1 * u.val = 0; rw [e0]; omega
  | ⟨1, _⟩ => show win1_5.index t (1 : Fin 2) * 128 + 1 * k.val = k.val; rw [e1]; omega

/-- The shift's block at every point is its one row. -/
theorem beta_block (c : Dev nD) (t : Fin cfg1.N) (u : Fin 1) (k : Fin 128) :
    (iblk1 V c 6 t : Vec Ideal S1x128 .f32) (ix2 u k) = Cert.Spec.rd2 (n0 := 1) (n1 := 128) (V c main_v26) 0 k := by
  obtain ⟨-, -, -, -, -, -, -, -, -, -, -, -, e0, e1, -⟩ := idx_facts t
  unfold iblk1
  rw [View.read_apply]
  show V c main_v26 _ = V c main_v26 _
  congr 1
  funext a
  apply Fin.ext
  match a with
  | ⟨0, _⟩ => show win1_6.index t (0 : Fin 2) * 1 + 1 * u.val = 0; rw [e0]; omega
  | ⟨1, _⟩ => show win1_6.index t (1 : Fin 2) * 128 + 1 * k.val = k.val; rw [e1]; omega

/-! ## One entry of the output block, over variable blocks -/

/-- If the seven blocks' rows are the rows of seven arrays (row `r` of a tiled block is row `p` of its array, a single-row
    block is its array's row), entry `(r, q)` of what the body stores is the layer normalisation of row `p` at feature `q`. -/
theorem block_entry (d : Vec Ideal S4000x1 .f32) (a s x : Vec Ideal S4000x128 .f32) (b g be : Vec Ideal S1x128 .f32)
    (A S X : Fin 128 → EReal) (D : EReal) (B Gm Be : Fin 128 → EReal) (r : Fin 4000) (q : Fin 128)
    (ha : ∀ k, a (ix2 r k) = A k) (hs : ∀ k, s (ix2 r k) = S k) (hx : ∀ k, x (ix2 r k) = X k) (hd : d (ix2 r 0) = D)
    (hb : ∀ k, b (ix2 0 k) = B k) (hg : ∀ k, g (ix2 0 k) = Gm k) (hbe : ∀ k, be (ix2 0 k) = Be k) :
    k1_pay1 (k1_pay2 d a s b x g) be (ix2 r q) = Cert.Spec.lnRelu (fun k => A k * D + S k * D + B k + X k) Gm Be q := by
  rw [pay_apply]
  simp only [ha, hs, hx, hd, hb, hg, hbe]

end Cert.KernelIdeal.Region1
end
-- ==== Proof.Region1.lean ====
/-
  Region 1's result array. Every grid point writes back one block of 4000 rows; that block is the restriction of one
  function of the array's index — the layer normalisation, rectified, of the node's row — and the 25 blocks cover the
  100000 rows. So after the run the array holds that function, and entry `(p, q)` is the specification's `lnRelu` of
  node `p`'s row at feature `q`.
-/
import proofs.«144689_j40931038331316_2_alg».proof.Proof.Gen.KernelIdeal.Frame
import proofs.«144689_j40931038331316_2_alg».proof.Proof.Spec
import proofs.«144689_j40931038331316_2_alg».proof.Proof.Region1A
import proofs.«144689_j40931038331316_2_alg».proof.Proof.Region1B
import Idealize.ShloMosaic.Lib.Pipeline.Value
import Idealize.ShloMosaic.Lib.ValueIdx
import Idealize.ShloMosaic.Lib.ValueLayout
import Idealize.ShloMosaic.PureOps.Ideal.Laws

noncomputable section
open scoped BigOperators
namespace Cert.KernelIdeal.Region1
open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-! ## What a point writes back, and the array after the run -/

/-- What point `t` writes back is block `t` of the result: the staging buffer holds the body's one whole-block store,
    whose entry `(r, q)` is, by the rows of the seven input blocks, the layer normalisation of row `4000 t + r`. -/
theorem flushed_eq (c : Dev nD) (t : Fin cfg1.N) :
    (dat1 (F := Ideal) V c).flushed 7 t = ((cfg1.win 7).blk t).view.read (Elt Ideal) (whole V c) := by
  show (cfg1.win 7).cut (grid1.coords t) ((dat1 (F := Ideal) V c).after 7 t) = _
  rw [after1_7]
  unfold out1_7
  rw [View.canon_unit_zero zero_off]
  simp only [View.ld_unit_zero (S := S4000x128) zero_off, View.ld_unit_zero (S := S4000x1) zero_off,
    View.ld_unit_zero (S := S1x128) zero_off]
  obtain ⟨-, -, -, -, -, -, -, -, -, -, -, -, -, -, e0, e1⟩ := idx_facts t
  funext j
  have hr : (j 0).val < 4000 := (j 0).isLt
  have hq : (j 1).val < 128 := (j 1).isLt
  have hx : (cfg1.win 7).xinj (grid1.coords t) j = ix2 (⟨(j 0).val, hr⟩ : Fin 4000) (⟨(j 1).val, hq⟩ : Fin 128) := by
    funext a
    match a with
    | ⟨0, _⟩ => rfl
    | ⟨1, _⟩ => rfl
  show k1_pay1 (k1_pay2 (iblk1 V c 2 t) (iblk1 V c 0 t) (iblk1 V c 1 t) (iblk1 V c 4 t) (iblk1 V c 3 t) (iblk1 V c 5 t)) (iblk1 V c 6 t)
      ((cfg1.win 7).xinj (grid1.coords t) j) = whole V c (((cfg1.win 7).blk t).view.emb j)
  rw [hx]
  have hp : ((((cfg1.win 7).blk t).view.emb j) 0).val = t.val * 4000 + (j 0).val := by
    show win1_7.index t (0 : Fin 2) * 4000 + 1 * (j 0).val = _
    rw [e0]; omega
  have hq' : ((((cfg1.win 7).blk t).view.emb j) 1) = (⟨(j 1).val, hq⟩ : Fin 128) := by
    apply Fin.ext
    show win1_7.index t (1 : Fin 2) * 128 + 1 * (j 1).val = (j 1).val
    rw [e1]; omega
  refine (block_entry _ _ _ _ _ _ _ _ _ _ _ _ _ _ ⟨(j 0).val, hr⟩ ⟨(j 1).val, hq⟩
    (fun k => agg_block V c t _ k _ hp) (fun k => xws_block V c t _ k _ hp) (fun k => x_block V c t _ k _ hp)
    (dis_block V c t _ 0 _ hp) (fun k => b_block V c t 0 k) (fun k => gamma_block V c t 0 k)
    (fun k => beta_block V c t 0 k)).trans ?_
  unfold whole entry
  rw [hq']

/-- An index of the result array is in point `t`'s block iff each coordinate is in the block's range on its axis. -/
theorem mem_out_block (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v27).slice (win1_7.rect t)).set ↔ _
  rw [View.set_slice_whole, Rect.mem_set_unit]
  exact Iff.rfl

/-- Every index of the result array is in the block of the point that holds its row: point `p / 4000`. -/
theorem covered (i : S100000x128.Idx) :
    ∃ t : Fin cfg1.N, (cfg1.win 7).flush t = true ∧ i ∈ ((cfg1.win 7).blk t).view.set := by
  have hN : cfg1.N = 25 := N_1
  have hi0 : (i 0).val < 100000 := (i 0).isLt
  have hi1 : (i 1).val < 128 := (i 1).isLt
  let t : Fin cfg1.N := ⟨(i 0).val / 4000, by omega⟩
  have ht : t.val = (i 0).val / 4000 := rfl
  obtain ⟨-, -, -, -, -, -, -, -, -, -, -, -, -, -, e0, e1⟩ := idx_facts t
  refine ⟨t, flush1_7 t, ?_⟩
  rw [mem_out_block]
  intro a
  match a with
  | ⟨0, _⟩ =>
    show win1_7.index t (0 : Fin 2) * 4000 ≤ (i 0).val ∧ (i 0).val < win1_7.index t (0 : Fin 2) * 4000 + 4000
    rw [e0, ht]; omega
  | ⟨1, _⟩ =>
    show win1_7.index t (1 : Fin 2) * 128 ≤ (i 1).val ∧ (i 1).val < win1_7.index t (1 : Fin 2) * 128 + 128
    rw [e1]; omega

/-- The result array after the run is the layer normalisation of every row: each point writes its block of it, and
    the blocks cover the array. -/
theorem out_array (c : Dev nD) : (dat1 (F := Ideal) V c).arrAt 7 cfg1.N = whole V c :=
  (dat1 (F := Ideal) V c).arrAt_eq_of_cover 7 (whole V c) (fun t _ => flushed_eq V c t) covered

/-- Entry `(p, q)` of the result array after the run: the layer normalisation, rectified, of node `p`'s row
    `agg(p,·)·dis(p) + xws(p,·)·dis(p) + b + x(p,·)` with scale `gamma` and shift `beta`, at feature `q`. -/
theorem value (V : (c : Dev nD) → (b : Ref sig .tc) → Buf (Elt Ideal) ((c : Thread nD τ).loc b)) (c : Dev nD)
    (p : Fin 100000) (q : Fin 128) :
    Cert.Spec.rd2 (n0 := 100000) (n1 := 128) ((dat1 (F := Ideal) V c).arrAt 7 cfg1.N) p q
      = Cert.Spec.lnRelu
          (fun k => Cert.Spec.rd2 (n0 := 100000) (n1 := 128) (V c main_v22) p k * Cert.Spec.rd2 (n0 := 100000) (n1 := 1) (V c main_v23) p 0
                      + Cert.Spec.rd2 (n0 := 100000) (n1 := 128) (V c main_v12) p k * Cert.Spec.rd2 (n0 := 100000) (n1 := 1) (V c main_v23) p 0
                      + Cert.Spec.rd2 (n0 := 1) (n1 := 128) (V c main_v24) 0 k
                      + Cert.Spec.rd2 (n0 := 100000) (n1 := 128) (V c main_arg0) p k)
          (fun k => Cert.Spec.rd2 (n0 := 1) (n1 := 128) (V c main_v25) 0 k)
          (fun k => Cert.Spec.rd2 (n0 := 1) (n1 := 128) (V c main_v26) 0 k) q := by
  show (dat1 (F := Ideal) V c).arrAt 7 cfg1.N (ix2 p q) = _
  rw [out_array V c]
  rfl

end Cert.KernelIdeal.Region1
end
-- ==== Proof.KernelValue.lean ====
/-
  The idealized kernel's result array, entry by entry, as one function of the six launch arrays. The second region's
  output window is the result buffer; what it normalises at node `p` is, by the host terms read entry by entry, the
  normalised graph convolution's row of `p`: the sum over the edges ending at `p` of the projected source rows, each
  scaled by its source's degree factor, times `p`'s factor; plus `p`'s own loop term, the bias and the residual
  input. The result is that row's layer normalisation with the given scale and shift, then the rectifier.
-/
import proofs.«144689_j40931038331316_2_alg».proof.Proof.KernelRun
import proofs.«144689_j40931038331316_2_alg».proof.Proof.Spec
import proofs.«144689_j40931038331316_2_alg».proof.Proof.GraphSpec
import proofs.«144689_j40931038331316_2_alg».proof.Proof.LibGatherRows
import proofs.«144689_j40931038331316_2_alg».proof.Proof.LibScatterAddRows
import proofs.«144689_j40931038331316_2_alg».proof.Proof.KernelHost
import proofs.«144689_j40931038331316_2_alg».proof.Proof.KernelEntries
import proofs.«144689_j40931038331316_2_alg».proof.Proof.Region1
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
open scoped BigOperators
namespace Cert.KernelIdeal.KernelValue
open Cert.KernelIdeal Cert.KernelIdeal.Gen Idealize.ShloMosaic Idealize.ShloMosaic.ValueIdx Idealize.ShloMosaic.TcCoe Idealize.SL.Sem

/-- The normalisation and rectifier of equal rows, scales and shifts are equal. -/
theorem lnRelu_congr {h h' g g' b b' : Fin 128 → EReal} (e1 : h = h') (e2 : g = g') (e3 : b = b') (q : Fin 128) :
    Cert.Spec.lnRelu h g b q = Cert.Spec.lnRelu h' g' b' q := by
  subst e1 e2 e3; rfl

/-- THE KERNEL'S VALUE: entry `(p, q)` of the result array is the layer normalisation and rectifier, at feature `q`,
    of node `p`'s graph-convolution row over the six launch arrays: edges counted into degrees by their end words,
    source rows read at the edges' source words, features projected by the weights, then the bias and the residual
    input added; the scale and the shift are the last two arrays. -/
theorem value (m : (ℓ : Loc nD τ sig) → Buf (Elt Ideal) ℓ) (ρ : Dev nD → PrngReg) (c : Dev nD) (p : Fin 100000) (q : Fin 128) :
    Cert.Spec.rd2 (n0 := 100000) (n1 := 128) (W4 m ρ c (Proc.devRef .tc main_v27)) p q
      = Cert.Spec.lnRelu
          (Cert.GraphSpec.kernelRow (E := 1600000) (Ideal.ofBits .f32 0x3F800000#32)
            (fun e => (dstWords (m ((c.tc : Thread nD τ).loc main_arg1)) (ix1 e)).toInt)
            (fun e => Cert.LibGatherRows.row (N := 100000) (by decide) (srcColumn (m ((c.tc : Thread nD τ).loc main_arg1))) e)
            (fun r k => ∑ j : Fin 128, Cert.Spec.rd2 (n0 := 100000) (n1 := 128) (m ((c.tc : Thread nD τ).loc main_arg0)) r j
                                      * Cert.Spec.rd2 (n0 := 128) (n1 := 128) (m ((c.tc : Thread nD τ).loc main_arg2)) j k)
            (fun k => rd1 (n := 128) (m ((c.tc : Thread nD τ).loc main_arg3)) k)
            (fun r k => Cert.Spec.rd2 (n0 := 100000) (n1 := 128) (m ((c.tc : Thread nD τ).loc main_arg0)) r k) p)
          (fun k => rd1 (n := 128) (m ((c.tc : Thread nD τ).loc main_arg4)) k)
          (fun k => rd1 (n := 128) (m ((c.tc : Thread nD τ).loc main_arg5)) k) q := by
  rw [Cert.KernelIdeal.KernelRun.W4_result m ρ c, Cert.KernelIdeal.Region1.value (V3 m ρ) c p q,
    V3_aggregate, V3_product, V3_factorColumn, V3_arg0, V3_biasRow, V3_scaleRow, V3_shiftRow]
  exact lnRelu_congr
    (funext fun k => row_eq_kernelRow ((dat0 (V1 m ρ) c).arrAt 3 cfg0.N) (m ((c.tc : Thread nD τ).loc main_arg0))
      (m ((c.tc : Thread nD τ).loc main_arg1)) (m ((c.tc : Thread nD τ).loc main_arg3))
      (fun r k => ∑ j : Fin 128, Cert.Spec.rd2 (n0 := 100000) (n1 := 128) (m ((c.tc : Thread nD τ).loc main_arg0)) r j
                                  * Cert.Spec.rd2 (n0 := 128) (n1 := 128) (m ((c.tc : Thread nD τ).loc main_arg2)) j k)
      (product_entry m ρ c) p k)
    (funext fun k => shapeCast_a_1a_apply (m ((c.tc : Thread nD τ).loc main_arg4)) shapeCasts_S128_S1x128 0 k)
    (funext fun k => shapeCast_a_1a_apply (m ((c.tc : Thread nD τ).loc main_arg5)) shapeCasts_S128_S1x128 0 k) q

end Cert.KernelIdeal.KernelValue
end
-- ==== Proof.RefLN.lean ====
/-
  The reference's last 25 operations, read at an entry: from the pre-normalisation features `h` (the aggregated
  messages plus bias plus the residual input) they take each row's mean and variance, normalise, scale, shift and
  rectify. Entry (p, q) of the result depends on row p of `h` only and is `Spec.lnRelu` of that row.
-/
import proofs.«144689_j40931038331316_2_alg».proof.Proof.Gen.ReferenceIdeal.Read
import proofs.«144689_j40931038331316_2_alg».proof.Proof.Spec

set_option maxRecDepth 16384

noncomputable section

open scoped BigOperators

namespace Cert.ReferenceIdeal.RefLN

open Cert.ReferenceIdeal Cert.ReferenceIdeal.Gen Cert.ReferenceIdeal.Read
open Idealize.ShloMosaic Idealize.ShloMosaic.ValueIdx Idealize.ShloMosaic.TcCoe

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))

/-- Row `p` of the pre-normalisation features. -/
abbrev hrow (p : Fin 100000) : Fin 128 → EReal := fun k => val_main_v44 (F := Ideal) x0 x1 x2 x3 (ix2 p k)

/-- The row mean the reference computes (a sum from the zero word, divided by the word of 128). -/
theorem mean_row (p : Fin 100000) :
    val_main_v48 (F := Ideal) x0 x1 x2 x3 (ix2 p (0 : Fin 1)) = Cert.Spec.mean (hrow x0 x1 x2 x3 p) := by
  rw [val_main_v48_apply, val_main_v46_apply, val_main_v45_apply, val_main_v47_apply, val_main_cst_8_apply, val_main_cst_7_apply]
  unfold Cert.Spec.mean hrow
  generalize val_main_v44 (F := Ideal) x0 x1 x2 x3 = y
  show Ideal.div (Ideal.ofBits .f32 0x00000000#32 + ∑ k : Fin 128, y (idx_main_v45 (idx_main_v46 (ix2 p (0 : Fin 1))) k))
      (Ideal.ofBits .f32 0x43000000#32) = _
  rw [Ideal.ofBits_zero_f32, zero_add]
  refine congrArg (fun z => Ideal.div z _) (Finset.sum_congr rfl fun k _ => congrArg y ?_)
  funext a
  match a with
  | ⟨0, _⟩ => rfl
  | ⟨1, _⟩ => rfl

/-- The deviation of an entry from its row's mean. -/
theorem deviation (p : Fin 100000) (k : Fin 128) :
    val_main_v50 (F := Ideal) x0 x1 x2 x3 (ix2 p k) = hrow x0 x1 x2 x3 p k - Cert.Spec.mean (hrow x0 x1 x2 x3 p) := by
  rw [val_main_v50_apply, val_main_v49_apply, show idx_main_v49 (ix2 p k) = ix2 p (0 : Fin 1) from
    funext fun a => by match a with | ⟨0, _⟩ => rfl | ⟨1, _⟩ => rfl, mean_row]
  rfl

/-- The same deviation as the second subtraction prints it. -/
theorem deviation' (p : Fin 100000) (k : Fin 128) :
    val_main_v57 (F := Ideal) x0 x1 x2 x3 (ix2 p k) = hrow x0 x1 x2 x3 p k - Cert.Spec.mean (hrow x0 x1 x2 x3 p) := by
  rw [val_main_v57_apply, val_main_v56_apply, show idx_main_v56 (ix2 p k) = ix2 p (0 : Fin 1) from
    funext fun a => by match a with | ⟨0, _⟩ => rfl | ⟨1, _⟩ => rfl, mean_row]
  rfl

/-- The row variance the reference computes. -/
theorem variance_row (p : Fin 100000) :
    val_main_v55 (F := Ideal) x0 x1 x2 x3 (ix2 p (0 : Fin 1)) = Cert.Spec.variance (hrow x0 x1 x2 x3 p) := by
  rw [val_main_v55_apply, val_main_v53_apply, val_main_v52_apply, val_main_v54_apply, val_main_cst_10_apply, val_main_cst_9_apply]
  unfold Cert.Spec.variance
  show Ideal.div (Ideal.ofBits .f32 0x00000000#32 + ∑ k : Fin 128, val_main_v51 (F := Ideal) x0 x1 x2 x3 (idx_main_v52 (idx_main_v53 (ix2 p (0 : Fin 1))) k))
      (Ideal.ofBits .f32 0x43000000#32) = Cert.Spec.mean _
  rw [Ideal.ofBits_zero_f32, zero_add]
  have hsum : (fun k : Fin 128 => val_main_v51 (F := Ideal) x0 x1 x2 x3 (idx_main_v52 (idx_main_v53 (ix2 p (0 : Fin 1))) k))
      = fun k => (hrow x0 x1 x2 x3 p k - Cert.Spec.mean (hrow x0 x1 x2 x3 p)) * (hrow x0 x1 x2 x3 p k - Cert.Spec.mean (hrow x0 x1 x2 x3 p)) := by
    funext k
    rw [show idx_main_v52 (idx_main_v53 (ix2 p (0 : Fin 1))) k = ix2 p k from
      funext fun a => by match a with | ⟨0, _⟩ => rfl | ⟨1, _⟩ => rfl, val_main_v51_apply, deviation]
    exact Ideal.mulf_def _ _
  rw [hsum]
  exact rfl

/-- Entry `(p, q)` of the reference's result: the normalised, scaled, shifted and rectified row. -/
theorem result_entry (p : Fin 100000) (q : Fin 128) :
    val_main_v69 (F := Ideal) x0 x1 x2 x3 x4 x5 (ix2 p q)
      = Cert.Spec.lnRelu (hrow x0 x1 x2 x3 p) (fun k => x4 (ix1 k)) (fun k => x5 (ix1 k)) q := by
  rw [val_main_v69_apply, val_main_v68_apply, val_main_v65_apply, val_main_v62_apply, deviation',
    val_main_v61_apply, val_main_v60_apply, val_main_v59_apply,
    show idx_main_v61 (ix2 p q) = ix2 p (0 : Fin 1) from funext fun a => by match a with | ⟨0, _⟩ => rfl | ⟨1, _⟩ => rfl,
    variance_row, val_main_v58_apply, val_main_cst_11_apply, val_main_v64_apply, val_main_v63_apply,
    val_main_v67_apply, val_main_v66_apply, val_main_call0_v0_apply, val_main_call0_cst_apply]
  unfold Cert.Spec.lnRelu
  show max ((hrow x0 x1 x2 x3 p q - Cert.Spec.mean (hrow x0 x1 x2 x3 p)) * Ideal.rsqrt (Cert.Spec.variance (hrow x0 x1 x2 x3 p) + Ideal.ofBits .f32 0x3727C5AC#32)
      * x4 (idx_main_v63 (idx_main_v64 (ix2 p q))) + x5 (idx_main_v66 (idx_main_v67 (ix2 p q)))) (Ideal.ofBits .f32 0x00000000#32) = _
  rw [Ideal.ofBits_zero_f32,
    show idx_main_v63 (idx_main_v64 (ix2 p q)) = ix1 q from funext fun a => by match a with | ⟨0, _⟩ => rfl,
    show idx_main_v66 (idx_main_v67 (ix2 p q)) = ix1 q from funext fun a => by match a with | ⟨0, _⟩ => rfl]

end Cert.ReferenceIdeal.RefLN

end
-- ==== Proof.RefAgg.lean ====
/-
  The reference's graph part, read at an entry. Its edge list is the given edges followed by one self-loop per node.
  Node r's degree is the number of list entries whose end is r; its normalising factor is the inverse square root of
  the degree. The message of list entry e at feature k is the projected feature of the entry's source row times the
  factors of its source and end rows; node p's aggregate is the sum of the messages of the entries whose end is p.
  "Whose end is p" reads the end index signed and unclamped (an entry outside the node range is dropped), while a
  gathered row is the index normalised and clamped.
-/
import proofs.«144689_j40931038331316_2_alg».proof.Proof.Gen.ReferenceIdeal.Read
import proofs.«144689_j40931038331316_2_alg».proof.Proof.LibGatherRows
import proofs.«144689_j40931038331316_2_alg».proof.Proof.LibScatterAddRows

set_option maxRecDepth 16384

noncomputable section

open scoped BigOperators

namespace Cert.ReferenceIdeal.RefAgg

open Cert.ReferenceIdeal Cert.ReferenceIdeal.Gen Cert.ReferenceIdeal.Read
open Idealize.ShloMosaic Idealize.ShloMosaic.ValueIdx Idealize.ShloMosaic.TcCoe
open Cert.LibGatherRows Cert.LibScatterAddRows

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))

/-- The host's scatter-add on the extended reals is the exact one: the operand plus, at each entry, the sum of the updates
    that land on it. -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- Node `r`'s degree: one unit (the word of 1.0) per list entry whose end is `r`. -/
theorem deg_entry (r : Fin 100000) :
    val_main_v10 (F := Ideal) x1 (ix1 r)
      = ∑ e : Fin 1700000, if (val_main_v6 (F := Ideal) x1 (ix1 e)).toInt = (r.val : Int) then Ideal.ofBits .f32 0x3F800000#32 else 0 := by
  unfold val_main_v10
  rw [hostScatterAdd_eq, scatterAdd_elems_apply _ rfl rfl rfl rfl, val_main_v8_apply, val_main_cst_0_apply,
    Ideal.ofBits_def, Ideal.ofBits_zero_f32, zero_add]
  refine Finset.sum_congr rfl fun e _ => ?_
  rw [val_main_v9_apply, show idx_main_v9 (ix2 e (0 : Fin 1)) = ix1 e from funext fun a => by match a with | ⟨0, _⟩ => rfl,
    val_main_v7_apply, val_main_cst_apply, Ideal.ofBits_def]

/-- Node `r`'s normalising factor. -/
theorem dis_entry (r : Fin 100000) :
    val_main_v11 (F := Ideal) x1 (ix1 r) = Ideal.rsqrt (val_main_v10 (F := Ideal) x1 (ix1 r)) := by
  rw [val_main_v11_apply, Ideal.hostUnary_rsqrt_def]

/-- The message of list entry `e` at feature `k`. -/
theorem msg_entry (e : Fin 1700000) (k : Fin 128) :
    val_main_v37 (F := Ideal) x0 x1 x2 (ix2 e k)
      = val_main_v12 (F := Ideal) x0 x2 (ix2 (row (N := 100000) (by decide) (val_main_v34 (F := Ideal) x1) e) k)
        * (val_main_v11 (F := Ideal) x1 (ix1 (row (N := 100000) (by decide) (val_main_v18 (F := Ideal) x1) e))
          * val_main_v11 (F := Ideal) x1 (ix1 (row (N := 100000) (by decide) (val_main_v25 (F := Ideal) x1) e))) := by
  rw [val_main_v37_apply, val_main_v36_apply, val_main_v28_apply,
    show idx_main_v28 (idx_main_v36 (ix2 e k)) = ix1 e from funext fun a => by match a with | ⟨0, _⟩ => rfl,
    val_main_v27_apply]
  unfold val_main_v35 val_main_v19 val_main_v26
  rw [gather_rows_apply (by decide) _ rfl rfl rfl rfl rfl rfl rfl, gather_elems_apply (by decide) _ rfl rfl rfl rfl rfl rfl rfl,
    gather_elems_apply (by decide) _ rfl rfl rfl rfl rfl rfl rfl]
  rfl

/-- Node `p`'s aggregate at feature `k`: the messages of the list entries whose end is `p`. -/
theorem agg_entry (p : Fin 100000) (k : Fin 128) :
    val_main_v40 (F := Ideal) x0 x1 x2 (ix2 p k)
      = ∑ e : Fin 1700000, if (val_main_v6 (F := Ideal) x1 (ix1 e)).toInt = (p.val : Int) then val_main_v37 (F := Ideal) x0 x1 x2 (ix2 e k) else 0 := by
  unfold val_main_v40
  rw [hostScatterAdd_eq, scatterAdd_rows_apply _ rfl rfl rfl rfl, val_main_v38_apply, val_main_cst_6_apply,
    Ideal.ofBits_def, Ideal.ofBits_zero_f32, zero_add]
  refine Finset.sum_congr rfl fun e _ => ?_
  rw [val_main_v39_apply, show idx_main_v39 (ix2 e (0 : Fin 1)) = ix1 e from funext fun a => by match a with | ⟨0, _⟩ => rfl]

/-- The pre-normalisation feature: aggregate plus bias plus the residual input. -/
theorem h_entry (p : Fin 100000) (k : Fin 128) :
    val_main_v44 (F := Ideal) x0 x1 x2 x3 (ix2 p k)
      = val_main_v40 (F := Ideal) x0 x1 x2 (ix2 p k) + x3 (ix1 k) + x0 (ix2 p k) := by
  rw [val_main_v44_apply, val_main_v43_apply, val_main_v42_apply, val_main_v41_apply,
    show idx_main_v41 (idx_main_v42 (ix2 p k)) = ix1 k from funext fun a => by match a with | ⟨0, _⟩ => rfl]
  rfl

end Cert.ReferenceIdeal.RefAgg

end
-- ==== Proof.RefRow.lean ====
/-
  The reference's pre-normalisation row of node p in the shared form: over its list of 1,700,000 entries (the edges,
  then one loop per node), with the end of entry e the word the list holds read signed, the source row the word
  normalised and clamped, and the end's row likewise; the projected features are the plain matrix product.
-/
import proofs.«144689_j40931038331316_2_alg».proof.Proof.RefAgg
import proofs.«144689_j40931038331316_2_alg».proof.Proof.RefLN
import proofs.«144689_j40931038331316_2_alg».proof.Proof.GraphSpec

set_option maxRecDepth 16384

noncomputable section

open scoped BigOperators

namespace Cert.ReferenceIdeal.RefRow

open Cert.ReferenceIdeal Cert.ReferenceIdeal.Gen Cert.ReferenceIdeal.Read Cert.ReferenceIdeal.RefAgg
open Idealize.ShloMosaic Idealize.ShloMosaic.ValueIdx Idealize.ShloMosaic.TcCoe
open Cert.LibGatherRows Cert.GraphSpec

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))

/-- The end of list entry `e`, read signed. -/
abbrev tgtR (e : Fin 1700000) : Int := (val_main_v6 (F := Ideal) x1 (ix1 e)).toInt

/-- The two lookups of the source's row (for the feature table and for the factor table) normalise the same word the
    same way. -/
theorem srcColumn_eq : val_main_v18 (F := Ideal) x1 = val_main_v34 (F := Ideal) x1 := rfl

/-- Node `r`'s normalising factor is the inverse square root of its count of list entries. -/
theorem dis_eq (r : Fin 100000) :
    val_main_v11 (F := Ideal) x1 (ix1 r) = Ideal.rsqrt (count (Ideal.ofBits .f32 0x3F800000#32) (tgtR x1) r) := by
  unfold Cert.GraphSpec.count
  rw [dis_entry, deg_entry]

/-- The reference's row of node `p` before normalisation, in the shared form. -/
theorem hrow_eq (p : Fin 100000) :
    Cert.ReferenceIdeal.RefLN.hrow x0 x1 x2 x3 p
      = referenceRow (E := 1700000) (Ideal.ofBits .f32 0x3F800000#32) (tgtR x1)
          (fun e => row (N := 100000) (by decide) (val_main_v34 (F := Ideal) x1) e)
          (fun e => row (N := 100000) (by decide) (val_main_v25 (F := Ideal) x1) e)
          (fun r k => val_main_v12 (F := Ideal) x0 x2 (ix2 r k))
          (fun k => x3 (ix1 k)) (fun r k => x0 (ix2 r k)) p := by
  funext k
  unfold referenceRow
  show val_main_v44 (F := Ideal) x0 x1 x2 x3 (ix2 p k) = _
  rw [h_entry, agg_entry]
  refine congrArg₂ (· + ·) (congrArg₂ (· + ·) (Finset.sum_congr rfl fun e _ => ?_) rfl) rfl
  rw [msg_entry, dis_eq, dis_eq, srcColumn_eq]

end Cert.ReferenceIdeal.RefRow

end
-- ==== Proof.IndexWords.lean ====
/-
  Node numbers as 32-bit words. A gather normalises its start index first (a negative word has the node count added)
  and then clamps it into the table; a scatter reads its index signed and drops what falls outside. For a word that
  IS a node number p (read signed it equals p, 0 ≤ p < 100000) all of this is the identity: the word is not negative,
  so normalising leaves it, and clamping p into [0, 99999] leaves p. The word `BitVec.ofNat 32 l` of a node number
  l reads signed as l.
-/
import Idealize.ShloMosaic.Lib.ValueIdx
import Idealize.ShloMosaic.PureOps.ShapeOps

namespace Cert.IndexWords

open Idealize.ShloMosaic Idealize.ShloMosaic.ValueIdx

/-- The normalisation a row lookup applies to its index word: a negative word has the node count added. -/
def nrm (w : BitVec 32) : BitVec 32 := Scalar.select (IntOp.cmpi .slt w 0#32) (IntOp.addi w 100000#32) w

/-- A word that is not negative is left alone. -/
theorem nrm_of_nonneg (w : BitVec 32) (h : 0 ≤ w.toInt) : nrm w = w := by
  unfold nrm
  have hs : IntOp.cmpi .slt w 0#32 = 0#1 := by
    show BitVec.ofBool (w.slt 0#32) = 0#1
    have : w.slt 0#32 = false := by
      rw [BitVec.slt]
      simp only [BitVec.toInt_zero, decide_eq_false_iff_not, not_lt]
      exact h
    rw [this]; rfl
  rw [hs]
  exact select_zero _ _

/-- The word of a node number reads signed as that number. -/
theorem toInt_ofNat_node (l : Fin 100000) : (BitVec.ofNat 32 l.val).toInt = (l.val : Int) := by
  have hl := l.isLt
  rw [BitVec.toInt_eq_toNat_cond, BitVec.toNat_ofNat]
  have h1 : l.val % 2 ^ 32 = l.val := Nat.mod_eq_of_lt (by omega)
  rw [h1]
  split <;> omega

/-- Clamping a node number into the table leaves it. -/
theorem clamp_node (w : BitVec 32) (p : Fin 100000) (h : w.toInt = (p.val : Int)) :
    min w.toInt.toNat (100000 - 1) = p.val := by
  have hp := p.isLt
  rw [h]; omega

end Cert.IndexWords
-- ==== Proof.RefSplit.lean ====
/-
  The reference's list of 1,700,000 entries is the 1,600,000 given edges followed by the 100,000 loops, one per node:
  entry e < 1,600,000 is edge e, entry 1,600,000 + l is the loop of node l, whose source and end are both the word of
  l. So a sum over the list is the sum over the edges plus the sum over the loops; a loop's end read signed is l, and
  both of its gathered rows are l; an edge whose end read signed is a node number p has its end's gathered row at p.
-/
import proofs.«144689_j40931038331316_2_alg».proof.Proof.Gen.ReferenceIdeal.Read
import proofs.«144689_j40931038331316_2_alg».proof.Proof.LibGatherRows
import proofs.«144689_j40931038331316_2_alg».proof.Proof.IndexWords

set_option maxRecDepth 16384

noncomputable section

open scoped BigOperators

namespace Cert.ReferenceIdeal.RefSplit

open Cert.ReferenceIdeal Cert.ReferenceIdeal.Gen Cert.ReferenceIdeal.Read
open Idealize.ShloMosaic Idealize.ShloMosaic.ValueIdx Idealize.ShloMosaic.TcCoe
open Cert.LibGatherRows Cert.IndexWords

variable (x1 : (⟨S2x1600000, .i32⟩ : BufTy).Contents (Elt Ideal))

/-- The list position of edge `e`. -/
def edge (e : Fin 1600000) : Fin 1700000 := ⟨e.val, by omega⟩
/-- The list position of node `l`'s loop. -/
def loop (l : Fin 100000) : Fin 1700000 := ⟨1600000 + l.val, by omega⟩

/-- A sum over the list is the sum over the edges plus the sum over the loops. -/
theorem sum_split (f : Fin 1700000 → EReal) : ∑ e', f e' = ∑ e, f (edge e) + ∑ l, f (loop l) :=
  (Fin.sum_univ_add (a := 1600000) (b := 100000) f).trans
    (congrArg₂ (· + ·) (Finset.sum_congr rfl fun _ _ => rfl) (Finset.sum_congr rfl fun _ _ => rfl))

/-! ## The two index lists at an edge and at a loop -/

theorem src_edge (e : Fin 1600000) : val_main_v3 (F := Ideal) x1 (ix1 (edge e)) = val_main_v2 (F := Ideal) x1 (ix1 e) := by
  unfold val_main_v3
  exact concatenate_pair_apply_left (t := S1700000) (s₁ := S1600000) (s₂ := S100000) (0 : Fin 1) _ _ concatenates_S1600000_S100000_S1700000_d0 (ix1 (edge e)) rfl (ix1 e)
    (fun b => match b with | ⟨0, _⟩ => rfl)

theorem dst_edge (e : Fin 1600000) : val_main_v6 (F := Ideal) x1 (ix1 (edge e)) = val_main_v5 (F := Ideal) x1 (ix1 e) := by
  unfold val_main_v6
  exact concatenate_pair_apply_left (t := S1700000) (s₁ := S1600000) (s₂ := S100000) (0 : Fin 1) _ _ concatenates_S1600000_S100000_S1700000_d0 (ix1 (edge e)) rfl (ix1 e)
    (fun b => match b with | ⟨0, _⟩ => rfl)

theorem src_loop (l : Fin 100000) : val_main_v3 (F := Ideal) x1 (ix1 (loop l)) = BitVec.ofNat 32 l.val := by
  unfold val_main_v3
  rw [concatenate_pair_apply_right (t := S1700000) (s₁ := S1600000) (s₂ := S100000) (0 : Fin 1) _ _ concatenates_S1600000_S100000_S1700000_d0 (ix1 (loop l)) rfl rfl (ix1 l)
    (fun b hb => absurd (Subsingleton.elim _ _) hb) (by show l.val + 1600000 = 1600000 + l.val; omega)]
  rfl

theorem dst_loop (l : Fin 100000) : val_main_v6 (F := Ideal) x1 (ix1 (loop l)) = BitVec.ofNat 32 l.val := by
  unfold val_main_v6
  rw [concatenate_pair_apply_right (t := S1700000) (s₁ := S1600000) (s₂ := S100000) (0 : Fin 1) _ _ concatenates_S1600000_S100000_S1700000_d0 (ix1 (loop l)) rfl rfl (ix1 l)
    (fun b hb => absurd (Subsingleton.elim _ _) hb) (by show l.val + 1600000 = 1600000 + l.val; omega)]
  rfl

/-! ## The normalised index columns -/

/-- The source's lookup column at list entry `e`: the source word, normalised. -/
theorem srcColumn_entry (e : Fin 1700000) :
    val_main_v34 (F := Ideal) x1 (ix2 e (0 : Fin 1)) = nrm (val_main_v3 (F := Ideal) x1 (ix1 e)) := by
  rw [val_main_v34_apply, show idx_main_v34 (ix2 e (0 : Fin 1)) = ix1 e from funext fun a => by match a with | ⟨0, _⟩ => rfl,
    val_main_v33_apply, val_main_v30_apply, val_main_v32_apply, val_main_v29_apply, val_main_c_4_apply, val_main_v31_apply,
    val_main_c_5_apply]
  rfl

/-- The end's lookup column at list entry `e`: the end word, normalised. -/
theorem dstColumn_entry (e : Fin 1700000) :
    val_main_v25 (F := Ideal) x1 (ix2 e (0 : Fin 1)) = nrm (val_main_v6 (F := Ideal) x1 (ix1 e)) := by
  rw [val_main_v25_apply, show idx_main_v25 (ix2 e (0 : Fin 1)) = ix1 e from funext fun a => by match a with | ⟨0, _⟩ => rfl,
    val_main_v24_apply, val_main_v21_apply, val_main_v23_apply, val_main_v20_apply, val_main_c_2_apply, val_main_v22_apply,
    val_main_c_3_apply]
  rfl

/-! ## Rows -/

/-- A loop's end, read signed, is its node. -/
theorem loop_end (l : Fin 100000) : (val_main_v6 (F := Ideal) x1 (ix1 (loop l))).toInt = (l.val : Int) := by
  rw [dst_loop, toInt_ofNat_node]

/-- A loop's source row is its node. -/
theorem loop_srcRow (l : Fin 100000) : row (N := 100000) (by decide) (val_main_v34 (F := Ideal) x1) (loop l) = l := by
  refine Fin.ext ?_
  show min (val_main_v34 (F := Ideal) x1 (ix2 (loop l) (0 : Fin 1))).toInt.toNat (100000 - 1) = l.val
  rw [srcColumn_entry, src_loop, nrm_of_nonneg _ (by rw [toInt_ofNat_node]; omega)]
  exact clamp_node _ l (toInt_ofNat_node l)

/-- A loop's end row is its node. -/
theorem loop_dstRow (l : Fin 100000) : row (N := 100000) (by decide) (val_main_v25 (F := Ideal) x1) (loop l) = l := by
  refine Fin.ext ?_
  show min (val_main_v25 (F := Ideal) x1 (ix2 (loop l) (0 : Fin 1))).toInt.toNat (100000 - 1) = l.val
  rw [dstColumn_entry, dst_loop, nrm_of_nonneg _ (by rw [toInt_ofNat_node]; omega)]
  exact clamp_node _ l (toInt_ofNat_node l)

/-- An edge whose end, read signed, is node `p` has its end's row at `p`. -/
theorem edge_dstRow (e : Fin 1600000) (p : Fin 100000) (h : (val_main_v5 (F := Ideal) x1 (ix1 e)).toInt = (p.val : Int)) :
    row (N := 100000) (by decide) (val_main_v25 (F := Ideal) x1) (edge e) = p := by
  refine Fin.ext ?_
  show min (val_main_v25 (F := Ideal) x1 (ix2 (edge e) (0 : Fin 1))).toInt.toNat (100000 - 1) = p.val
  rw [dstColumn_entry, dst_edge, nrm_of_nonneg _ (by rw [h]; omega)]
  exact clamp_node _ p h

/-- An edge's source row: the source word of the edge, normalised and clamped. -/
theorem edge_srcRow (e : Fin 1600000) :
    (row (N := 100000) (by decide) (val_main_v34 (F := Ideal) x1) (edge e)).val
      = min (nrm (val_main_v2 (F := Ideal) x1 (ix1 e))).toInt.toNat (100000 - 1) := by
  show min (val_main_v34 (F := Ideal) x1 (ix2 (edge e) (0 : Fin 1))).toInt.toNat (100000 - 1) = _
  rw [srcColumn_entry, src_edge]

end Cert.ReferenceIdeal.RefSplit

end
-- ==== Proof.Algebra.lean ====
/-
  The algebra that joins the two arrangements of a normalised graph convolution, on the extended reals, with no
  program in sight. One program scales each gathered row by the source's factor before the sum over the edges into a
  node and multiplies the sum by the node's own factor afterwards; the other multiplies every term by both factors
  before summing, and carries the node's self-loop as one more term of the sum. Multiplication distributes over a sum
  of extended reals when everything is a real number, which is where the inputs' finiteness is used: a finite sum of
  products of reals is a real.
-/
import Mathlib

noncomputable section

open scoped BigOperators

namespace Cert.Algebra

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A conditional real term, coerced. -/
theorem coe_ite (c : Prop) [Decidable c] (a : ℝ) : (if c then (a : EReal) else 0) = ((if c then a else 0 : ℝ) : EReal) := by
  split <;> simp

/-- A real factor distributes over a conditional sum of reals. -/
theorem sum_ite_mul_real {ι : Type*} [Fintype ι] (c : ι → Prop) [DecidablePred c] (a : ι → ℝ) (d : ℝ) :
    (∑ e, if c e then (a e : EReal) else 0) * (d : EReal) = ∑ e, if c e then (a e : EReal) * (d : EReal) else 0 := by
  have h2 : ∀ e, (if c e then (a e : EReal) * (d : EReal) else 0) = ((if c e then a e * d else 0 : ℝ) : EReal) := fun e => by
    split <;> simp
  simp only [coe_ite, h2, ← coe_sum, ← EReal.coe_mul, Finset.sum_mul]
  congr 1
  refine Finset.sum_congr rfl fun e _ => ?_
  split <;> simp

/-- A finite sum of products of reals is a real. -/
theorem sum_mul_real {ι : Type*} [Fintype ι] (x w : ι → ℝ) :
    (∑ j, (x j : EReal) * (w j : EReal)) = ((∑ j, x j * w j : ℝ) : EReal) := by
  rw [coe_sum]; simp

/-- The node's aggregated feature in the two arrangements. `hit e`: edge `e` ends at the node. `xs e`, `ds e`: the
    source's projected feature and normalising factor; `dd e`: the factor the second arrangement reads at the edge's
    end, which is the node's own `dp` on the edges that end there; `xp`: the node's own projected feature. -/
theorem aggregate_eq {ι : Type*} [Fintype ι] (hit : ι → Prop) [DecidablePred hit] (xs ds : ι → ℝ) (dd : ι → EReal)
    (dp xp : ℝ) (hdd : ∀ e, hit e → dd e = (dp : EReal)) :
    (∑ e, if hit e then (xs e : EReal) * (ds e : EReal) else 0) * (dp : EReal) + (xp : EReal) * (dp : EReal) * (dp : EReal)
      = (∑ e, if hit e then (xs e : EReal) * ((ds e : EReal) * dd e) else 0) + (xp : EReal) * ((dp : EReal) * (dp : EReal)) := by
  have h1 : ∀ e, (if hit e then (xs e : EReal) * (ds e : EReal) else 0) = (if hit e then ((xs e * ds e : ℝ) : EReal) else 0) := fun e => by
    split <;> simp
  simp only [h1]
  rw [sum_ite_mul_real, mul_assoc]
  congr 1
  refine Finset.sum_congr rfl fun e _ => ?_
  by_cases h : hit e
  · rw [if_pos h, if_pos h, hdd e h, EReal.coe_mul, mul_assoc]
  · rw [if_neg h, if_neg h]

end Cert.Algebra

end
-- ==== Proof.GraphBridge.lean ====
/-
  The two arrangements of the graph convolution agree. The reference's list is the kernel's edges followed by one loop
  per node: a sum over it is the sum over the edges plus the sum over the loops. The loops add one unit to every node's
  count, so the reference's degree is the kernel's count plus one; a count is a non-negative real and the unit is
  positive, so every normalising factor is a real number. The loop of node p is the only loop that ends at p and
  contributes the node's own term; on an edge that ends at p the reference reads the end's factor at row p. With every
  projected feature a real (the inputs are finite) the node's factor distributes over the sum of the edge terms.
-/
import proofs.«144689_j40931038331316_2_alg».proof.Proof.GraphSpec
import proofs.«144689_j40931038331316_2_alg».proof.Proof.Algebra

set_option maxRecDepth 16384

noncomputable section

open scoped BigOperators

namespace Cert.GraphBridge

open Idealize.ShloMosaic Cert.GraphSpec Cert.Algebra

/-- The inverse square root of a positive real is a real. -/
theorem rsqrt_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A count of units is a non-negative real. -/
theorem count_real {E : Nat} (oneR : ℝ) (hone : 0 ≤ oneR) (tgt : Fin E → Int) (r : Fin 100000) :
    ∃ c : ℝ, 0 ≤ c ∧ count (oneR : EReal) tgt r = (c : EReal) := by
  refine ⟨∑ e : Fin E, if tgt e = (r.val : Int) then oneR else 0, Finset.sum_nonneg fun e _ => by split <;> simp [hone], ?_⟩
  unfold count
  rw [coe_sum]
  exact Finset.sum_congr rfl fun e _ => coe_ite _ _

theorem kernelRow_eq_referenceRow {E E' : Nat} (oneR : ℝ) (hone : 0 < oneR)
    (tgt : Fin E → Int) (srow : Fin E → Fin 100000)
    (tgt' : Fin E' → Int) (srow' trow' : Fin E' → Fin 100000)
    (edge : Fin E → Fin E') (loop : Fin 100000 → Fin E')
    (hsplit : ∀ f : Fin E' → EReal, ∑ e', f e' = ∑ e, f (edge e) + ∑ l, f (loop l))
    (ht : ∀ e, tgt' (edge e) = tgt e) (hs : ∀ e, srow' (edge e) = srow e)
    (htr : ∀ e (p : Fin 100000), tgt e = (p.val : Int) → trow' (edge e) = p)
    (hlt : ∀ l : Fin 100000, tgt' (loop l) = (l.val : Int)) (hls : ∀ l, srow' (loop l) = l) (hlr : ∀ l, trow' (loop l) = l)
    (xwr : Fin 100000 → Fin 128 → ℝ) (xw : Fin 100000 → Fin 128 → EReal) (hxw : ∀ r k, xw r k = (xwr r k : EReal))
    (b : Fin 128 → EReal) (x : Fin 100000 → Fin 128 → EReal) (p : Fin 100000) :
    kernelRow (oneR : EReal) tgt srow xw b x p = referenceRow (oneR : EReal) tgt' srow' trow' xw b x p := by
  -- the loops add one unit to every count
  have hcount : ∀ r : Fin 100000, count (oneR : EReal) tgt' r = count (oneR : EReal) tgt r + (oneR : EReal) := by
    intro r
    unfold count
    rw [hsplit]
    refine congrArg₂ (· + ·) ?_ ?_
    · exact Finset.sum_congr rfl fun e _ => by rw [ht]
    · rw [Finset.sum_eq_single r]
      · rw [if_pos (hlt r)]
      · intro l _ hl
        rw [if_neg]
        rw [hlt]; intro h; exact hl (Fin.ext (by exact_mod_cast h))
      · intro h; exact absurd (Finset.mem_univ r) h
  -- every factor is a real
  have hd : ∀ r : Fin 100000, ∃ d : ℝ, Ideal.rsqrt (count (oneR : EReal) tgt r + (oneR : EReal)) = (d : EReal) := by
    intro r
    obtain ⟨c, hc, hcr⟩ := count_real oneR hone.le tgt r
    refine ⟨(Real.sqrt (c + oneR))⁻¹, ?_⟩
    rw [hcr, ← EReal.coe_add, rsqrt_pos _ (by linarith)]
  choose d hdr using hd
  funext k
  unfold kernelRow referenceRow
  simp only [hcount, hdr, hxw]
  rw [hsplit]
  -- the loops: only node p's own ends at p
  have hloops : (∑ l : Fin 100000, if tgt' (loop l) = (p.val : Int) then
      (xwr (srow' (loop l)) k : EReal) * ((d (srow' (loop l)) : EReal) * (d (trow' (loop l)) : EReal)) else 0)
      = (xwr p k : EReal) * ((d p : EReal) * (d p : EReal)) := by
    rw [Finset.sum_eq_single p]
    · rw [if_pos (hlt p), hls, hlr]
    · intro l _ hl
      rw [if_neg]
      rw [hlt]; intro h; exact hl (Fin.ext (by exact_mod_cast h))
    · intro h; exact absurd (Finset.mem_univ p) h
  rw [hloops]
  have hedges : (∑ e : Fin E, if tgt' (edge e) = (p.val : Int) then
      (xwr (srow' (edge e)) k : EReal) * ((d (srow' (edge e)) : EReal) * (d (trow' (edge e)) : EReal)) else 0)
      = ∑ e : Fin E, if tgt e = (p.val : Int) then (xwr (srow e) k : EReal) * ((d (srow e) : EReal) * (d (trow' (edge e)) : EReal)) else 0 :=
    Finset.sum_congr rfl fun e _ => by rw [ht, hs]
  rw [hedges]
  rw [aggregate_eq (fun e => tgt e = (p.val : Int)) (fun e => xwr (srow e) k) (fun e => d (srow e))
    (fun e => (d (trow' (edge e)) : EReal)) (d p) (xwr p k) (fun e he => by rw [htr e p he])]

end Cert.GraphBridge

end
-- ==== Proof.UnitWord.lean ====
/-
  The one float word whose value the proof needs: the unit each list entry adds to its end's degree is the word of
  1.0, which denotes the real number one. (Every other word in the two programs stands unevaluated on both sides.)
-/
import Idealize.ShloMosaic.PureOps.Ideal

noncomputable section

namespace Cert.UnitWord

open Idealize.ShloMosaic

/-- The word `0x3F800000` (sign 0, biased exponent 127, zero fraction) denotes the real number 1. -/
theorem unit_word : Ideal.ofBits .f32 0x3F800000#32 = ((1 : ℝ) : EReal) := by
  have h : Ideal.ofBits .f32 0x3F800000#32 = 1 := by
    simp [Ideal.ofBits, Ideal.ieee, -EReal.coe_mul]; norm_num
  rw [h, EReal.coe_one]

end Cert.UnitWord

end
-- ==== Proof.Bridge.lean ====
/-
  The kernel's pre-normalisation row equals the reference's, for arguments that are the same arrays. The kernel's edge
  data are read off the same edge list as the first 1,600,000 entries of the reference's list: the same end words, the
  same normalised source words. With every entry of the feature table and of the weights a real, the projected
  features are reals and `GraphBridge` applies.
-/
import proofs.«144689_j40931038331316_2_alg».proof.Proof.KernelHost
import proofs.«144689_j40931038331316_2_alg».proof.Proof.RefRow
import proofs.«144689_j40931038331316_2_alg».proof.Proof.RefSplit
import proofs.«144689_j40931038331316_2_alg».proof.Proof.GraphBridge
import proofs.«144689_j40931038331316_2_alg».proof.Proof.UnitWord

set_option maxRecDepth 16384

noncomputable section

open scoped BigOperators

namespace Cert.Bridge

open Idealize.ShloMosaic Idealize.ShloMosaic.ValueIdx Idealize.ShloMosaic.TcCoe
open Cert.KernelIdeal.KernelValue Cert.ReferenceIdeal.Read Cert.ReferenceIdeal.RefSplit
open Cert.LibGatherRows Cert.IndexWords Cert.Spec

variable (a0 : (⟨Cert.KernelIdeal.S100000x128, .f32⟩ : BufTy).Contents (Elt Ideal))
  (a1 : (⟨Cert.KernelIdeal.S2x1600000, .i32⟩ : BufTy).Contents (Elt Ideal))
  (a2 : (⟨Cert.KernelIdeal.S128x128, .f32⟩ : BufTy).Contents (Elt Ideal))
  (a3 : (⟨Cert.KernelIdeal.S128, .f32⟩ : BufTy).Contents (Elt Ideal))

/-- The reference's matrix product at an entry, in the kernel's spelling of the sum. -/
theorem product_eq (r : Fin 100000) (k : Fin 128) :
    val_main_v12 (F := Ideal) a0 a2 (ix2 r k)
      = ∑ j : Fin 128, rd2 (n0 := 100000) (n1 := 128) a0 r j * rd2 (n0 := 128) (n1 := 128) a2 j k := by
  rw [val_main_v12_apply]
  refine Finset.sum_congr rfl fun j _ => ?_
  refine congrArg₂ (· * ·) (congrArg a0 ?_) (congrArg a2 ?_)
  · funext a
    match a with
    | ⟨0, _⟩ => rfl
    | ⟨1, _⟩ => rfl
  · funext a
    match a with
    | ⟨0, _⟩ => rfl
    | ⟨1, _⟩ => rfl

/-- The kernel's source-row column at edge `e`: the edge's source word, normalised. -/
theorem srcColumn_entry (e : Fin 1600000) : srcColumn a1 (ix2 e (0 : Fin 1)) = nrm (srcWords a1 (ix1 e)) := by
  unfold srcColumn
  rw [wordColumn_apply]
  rfl

/-- An edge's source row is the same in both programs. -/
theorem edge_srcRow_eq (e : Fin 1600000) :
    row (N := 100000) (by decide) (val_main_v34 (F := Ideal) a1) (edge e) = row (N := 100000) (by decide) (srcColumn a1) e := by
  refine Fin.ext ?_
  rw [Cert.ReferenceIdeal.RefSplit.edge_srcRow]
  show _ = min (srcColumn a1 (ix2 e (0 : Fin 1))).toInt.toNat (100000 - 1)
  rw [srcColumn_entry]
  rfl

theorem rows_eq (xr : Fin 100000 → Fin 128 → ℝ) (wr : Fin 128 → Fin 128 → ℝ)
    (hx : ∀ r j, rd2 (n0 := 100000) (n1 := 128) a0 r j = (xr r j : EReal))
    (hw : ∀ j k, rd2 (n0 := 128) (n1 := 128) a2 j k = (wr j k : EReal)) (p : Fin 100000) :
    Cert.GraphSpec.kernelRow (E := 1600000) (Ideal.ofBits .f32 0x3F800000#32)
        (fun e => (dstWords a1 (ix1 e)).toInt)
        (fun e => row (N := 100000) (by decide) (srcColumn a1) e)
        (fun r k => ∑ j : Fin 128, rd2 (n0 := 100000) (n1 := 128) a0 r j * rd2 (n0 := 128) (n1 := 128) a2 j k)
        (fun k => rd1 (n := 128) a3 k)
        (fun r k => rd2 (n0 := 100000) (n1 := 128) a0 r k) p
      = Cert.ReferenceIdeal.RefLN.hrow a0 a1 a2 a3 p := by
  rw [Cert.ReferenceIdeal.RefRow.hrow_eq]
  have hxw : (fun (r : Fin 100000) (k : Fin 128) => val_main_v12 (F := Ideal) a0 a2 (ix2 r k))
      = fun r k => ∑ j : Fin 128, rd2 (n0 := 100000) (n1 := 128) a0 r j * rd2 (n0 := 128) (n1 := 128) a2 j k :=
    funext fun r => funext fun k => product_eq a0 a2 r k
  rw [hxw, Cert.UnitWord.unit_word]
  exact Cert.GraphBridge.kernelRow_eq_referenceRow 1 one_pos _ _ _ _ _ edge loop sum_split
    (fun e => congrArg BitVec.toInt (dst_edge a1 e))
    (fun e => edge_srcRow_eq a1 e)
    (fun e p h => edge_dstRow a1 e p h)
    (fun l => loop_end a1 l) (fun l => loop_srcRow a1 l) (fun l => loop_dstRow a1 l)
    (fun r k => ∑ j : Fin 128, xr r j * wr j k) _
    (fun r k => by simp only [hx, hw]; exact Cert.Algebra.sum_mul_real _ _) _ _ p

end Cert.Bridge

end
-- ==== Proof.Finite.lean ====
/-
  From the printed precondition to real entries. The precondition takes, for each float input, the absolute value of
  every entry, compares it below the word of `+∞`, and conjoins all the comparisons (one `and`-reduction per input, the
  five results joined by `and`). If the result is the true word then every one of those comparisons is true; on the
  extended reals `|x| = max x (-x)` is below `⊤` only when `x` is neither `⊥` nor `⊤`, that is, when `x` is a real
  number. Stated here for the node features (the first input) and the weight matrix (the third).
-/
import proofs.«144689_j40931038331316_2_alg».proof.Defs
import Idealize.ShloMosaic.Lib.ReduceAll
import Idealize.ShloMosaic.Lib.ValueIdx

noncomputable section
namespace Cert.Finite
open Idealize.ShloMosaic Idealize.ShloMosaic.ValueIdx Idealize.SL.Sem

/-- The rank-0 shape has one index. -/
instance : Subsingleton Cert.Pre_finite_inputs.S_.Idx := ⟨fun a b => funext fun d => d.elim0⟩

/-- The word `0x7F800000` is `+∞`. -/
theorem inf_word : Ideal.ofBits .f32 0x7F800000#32 = ⊤ := by simp [Ideal.ofBits, Ideal.ieee]

/-- An extended real whose absolute value `max x (-x)` compares below `+∞` is a real number: at `⊥` and at `⊤` the
    absolute value is `⊤`, which is not below itself. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exact absurd h (by simp [Ideal.cmp])
  | coe r => exact ⟨r, rfl⟩
  | top => exact absurd h (by simp [Ideal.cmp])

/-- If the precondition's word is true then every entry of the first and of the third input is a real number: the
    outer conjunctions give each input's own reduction the true word, a true `and`-reduction over all axes makes every
    compared entry true, and a true comparison `|x| < +∞` makes `x` real. -/
theorem reals_of_pre [Cert.Pre_finite_inputs.Facts] (x0 : FVec Ideal Cert.Pre_finite_inputs.S100000x128 .f32)
    (x1 : IVec Cert.Pre_finite_inputs.S2x1600000 32) (x2 : FVec Ideal Cert.Pre_finite_inputs.S128x128 .f32)
    (x3 x4 x5 : FVec Ideal Cert.Pre_finite_inputs.S128 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) := by
  have h0 := congrFun h ix0
  dsimp only [Cert.Pre_finite_inputs.fn, Cert.Pre_finite_inputs.fn_part1] at h0
  obtain ⟨h18, -⟩ := IntOp.andi_eq_one.1 h0
  obtain ⟨h13, -⟩ := IntOp.andi_eq_one.1 h18
  obtain ⟨h8, -⟩ := IntOp.andi_eq_one.1 h13
  obtain ⟨h3, h7⟩ := IntOp.andi_eq_one.1 h8
  exact ⟨fun i => real_of_abs_lt (x0 i) (Host.reduce_andi_all _ _ _ _ ix0 h3 i),
    fun i => real_of_abs_lt (x2 i) (Host.reduce_andi_all _ _ _ _ ix0 h7 i)⟩

/-- On every core, the printed precondition of the idealized kernel's launch memory makes every entry of the node
    features and of the weight matrix a real number. -/
theorem reals_of_Pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal)) :=
  reals_of_pre _ _ _ _ _ _ (hpre c)

end Cert.Finite
end
-- ==== Proof.lean ====
/-
  One layer of a graph convolution over 100,000 nodes with 128 features and 1,600,000 directed edges, followed by a
  residual connection, layer normalisation and a rectifier:
      out = relu (LN (Â · (x W) + b + x)),   Â = D^(-1/2) (A + I) D^(-1/2),  D = in-degree + 1.
  The reference builds the list "edges, then one loop per node", counts the degrees over it, and sums over it the
  source's projected feature times both normalising factors. The kernel counts degrees over the edges and adds one,
  scales x W by the source's factor in its first region, sums the gathered rows over the edges on the host, and in its
  second region multiplies the sum by the node's factor, adds the node's own loop term, the bias and the input, and
  normalises. On the extended reals the two agree once the node's factor may be moved inside the sum over the edges,
  which holds because every term is a real number: the features and the weights are finite (the precondition), so the
  projected features are reals, and every degree is a positive real, so every factor is a real. Every float word other
  than the degree's unit 1.0 stands unevaluated on both sides; an edge whose end is not a node number is dropped by
  both programs, and a source index is normalised and clamped by both in the same way.

  The three frames are the generated ones (the reference's is its run with the result dropped); the idealisation
  rewrote nothing, so `preserves` is trivial; `algebraic` takes the kernel's run with its result kept
  (`KernelRun`), reads the result entry by entry (`KernelValue`), reads the reference's result entry by entry
  (`RefLN`, `RefRow`), and joins the two rows (`Bridge`).
-/
import proofs.«144689_j40931038331316_2_alg».proof.Defs
import proofs.«144689_j40931038331316_2_alg».proof.Proof.Gen.Kernel
import proofs.«144689_j40931038331316_2_alg».proof.Proof.Gen.Kernel.Skeleton
import proofs.«144689_j40931038331316_2_alg».proof.Proof.Gen.Kernel.Launch
import proofs.«144689_j40931038331316_2_alg».proof.Proof.Gen.Kernel.Points
import proofs.«144689_j40931038331316_2_alg».proof.Proof.Gen.Kernel.Frame
import proofs.«144689_j40931038331316_2_alg».proof.Proof.Gen.KernelIdeal
import proofs.«144689_j40931038331316_2_alg».proof.Proof.Gen.KernelIdeal.Skeleton
import proofs.«144689_j40931038331316_2_alg».proof.Proof.Gen.KernelIdeal.Launch
import proofs.«144689_j40931038331316_2_alg».proof.Proof.Gen.KernelIdeal.Points
import proofs.«144689_j40931038331316_2_alg».proof.Proof.Gen.KernelIdeal.Frame
import proofs.«144689_j40931038331316_2_alg».proof.Proof.Gen.ReferenceIdeal
import proofs.«144689_j40931038331316_2_alg».proof.Proof.Gen.ReferenceIdeal.Run
import proofs.«144689_j40931038331316_2_alg».proof.Proof.Gen.ReferenceIdeal.Read
import proofs.«144689_j40931038331316_2_alg».proof.Proof.Gen.Pre_finite_inputs
import proofs.«144689_j40931038331316_2_alg».proof.Proof.KernelRun
import proofs.«144689_j40931038331316_2_alg».proof.Proof.KernelValue
import proofs.«144689_j40931038331316_2_alg».proof.Proof.RefLN
import proofs.«144689_j40931038331316_2_alg».proof.Proof.Bridge
import proofs.«144689_j40931038331316_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From arguments that agree and are finite, the reference's result array is the kernel's. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v69 m' c
      = Cert.KernelIdeal.Gen.W4 m ρ c (Proc.devRef .tc Cert.KernelIdeal.main_v27) := by
  rw [Cert.ReferenceIdeal.Read.val_main_v69_eq, h0, h1, h2, h3, h4, h5]
  refine funext fun i => ?_
  obtain ⟨p, q, rfl⟩ : ∃ (p : Fin 100000) (q : Fin 128), i = ix2 p q := ⟨i 0, i 1, eq_ix2 i⟩
  obtain ⟨hx, hw⟩ := Cert.Finite.reals_of_Pre m hpre c
  choose xr hxr using fun (r : Fin 100000) (j : Fin 128) => hx (ix2 r j)
  choose wr hwr using fun (j : Fin 128) (k : Fin 128) => hw (ix2 j k)
  rw [Cert.ReferenceIdeal.RefLN.result_entry]
  refine Eq.trans ?_ (Cert.KernelIdeal.KernelValue.value m ρ c p q).symm
  rw [Cert.Bridge.rows_eq _ _ _ _ xr wr hxr hwr p]

/-- Both idealized programs run, from arguments that agree, to the same result array. -/
theorem algebraic : Cert.algebraic_KernelIdeal_ReferenceIdeal := by
  intro m ρ m' ρ' hpre hagree
  refine ⟨fun c => Cert.KernelIdeal.Gen.W4 m ρ c (Proc.devRef .tc Cert.KernelIdeal.main_v27),
    Cert.KernelIdeal.KernelRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact result_eq m ρ m' hpre c (hagree c).1 (hagree c).2.1 (hagree c).2.2.1 (hagree c).2.2.2.1 (hagree c).2.2.2.2.1 (hagree c).2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
